-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x8x1x512 : Shape := ⟨4, ![8, 8, 1, 512]⟩
abbrev S8x1x4096 : Shape := ⟨3, ![8, 1, 4096]⟩
abbrev S_ : Shape := ⟨0, ![]⟩
abbrev S1x512x3 : Shape := ⟨3, ![1, 512, 3]⟩
abbrev S1x3x4096 : Shape := ⟨3, ![1, 3, 4096]⟩
abbrev S1x1x1x512 : Shape := ⟨4, ![1, 1, 1, 512]⟩
abbrev S1x1x4096 : Shape := ⟨3, ![1, 1, 4096]⟩
abbrev S512x3 : Shape := ⟨2, ![512, 3]⟩
abbrev S3x4096 : Shape := ⟨2, ![3, 4096]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩

abbrev nBuf : Space → Nat
  | .hbm => 14
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x8x1x512, .f32⟩
  | .hbm, ⟨4, _⟩ => ⟨S8x1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1x512, .f32⟩
  | .local _ .vmem, ⟨5, _⟩ => ⟨S1x1x1x512, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_cst : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_cst_1 : Ref sig .tc := ⟨.hbm, 9, rfl⟩
abbrev main_call0_v4 : Ref sig .tc := ⟨.hbm, 10, rfl⟩
abbrev main_call0_cst_2 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_14 : BitVec 32 := 0#32
  let v28 : BitVec 1 := Scalar.cmpi .ne v27 c0_i32_14
  v28

def k0_cond2 (i : grid0.Coords) : BitVec 1 :=
  let arg1 : BitVec 32 := BitVec.ofNat 32 (i 1).val
  let c0_i32_15 : BitVec 32 := 0#32
  let v29 : BitVec 1 := Scalar.cmpi .sgt arg1 c0_i32_15
  let v30 : BitVec 32 := Scalar.extui v29
  let c0_i32_16 : BitVec 32 := 0#32
  let v31 : BitVec 1 := Scalar.cmpi .ne v30 c0_i32_16
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  reducesTo_S8x8x1x512_S_d0_1_2_3 : S8x8x1x512.ReducesTo [0, 1, 2, 3] S_
  h_S_ : 0 < S_.numel
  reducesTo_S8x1x4096_S_d0_1_2 : S8x1x4096.ReducesTo [0, 1, 2] S_
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S512x3_S512 : S512x3.Reduces [1] S512
  shapeCasts_S512_S512x1 : S512.ShapeCasts S512x1
  reduces_S3x4096_S4096 : S3x4096.Reduces [0] S4096
  shapeCasts_S4096_S1x4096 : S4096.ShapeCasts S1x4096
  bitsLt_bf16_f32 : FTy.bits .bf16 < FTy.bits .f32
  broadcasts_S512x1_S512x4096 : S512x1.Broadcasts S512x4096
  broadcasts_S1x4096_S512x4096 : S1x4096.Broadcasts S512x4096
  reduces_S512x4096_S512 : S512x4096.Reduces [1] S512
  inb_S1x1x1x512_S1x1x1x512_0_0_0_0 : ∀ a, (![0, 0, 0, 0] : Fin 4 → Nat) a + S1x1x1x512.size a ≤ S1x1x1x512.size a
  h_S1x1x1x512 : 0 < S1x1x1x512.numel
  shapeCasts_S1x1x1x512_S512 : S1x1x1x512.ShapeCasts S512
  shapeCasts_S512_S1x1x1x512 : S512.ShapeCasts S1x1x1x512
  reduces_S512x4096_S4096 : S512x4096.Reduces [0] S4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x512.size a ≤ S8x8x1x512.size a
  hwx0_2 : ∀ i : grid0.Coords, EltTy.bits .f32 = 32 ∨ (Rect.block (s := S8x8x1x512) S1x1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_0) S1x1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Kernel.Runs.lean ====
/-
  What the two runs of the tile body share. The grid is 8 batches × 8 row tiles, point t = 8·b + i.
  The body's first branch (the running column minimum is SET to this tile's) is taken exactly at the
  first tile of a batch, t % 8 = 0; its second (the running minimum is LOWERED by this tile's) exactly
  at the other seven. So the column-minimum window is stored into at every point, and the body has two
  cases: A at t % 8 = 0, B elsewhere.
-/
import proofs.«160829_g28724741276335_cont_9to1_1365_9_alg».proof.Proof.Gen.Kernel.Frame
import proofs.«160829_g28724741276335_cont_9to1_1365_9_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the first row tile of each batch. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken at every other row tile. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two branches stores the column minima whatever the row tile: a tile index is zero or positive. -/
theorem live3 : ∀ i : grid0.Coords, cfg0.idle 3 i = false := by
  intro i
  show (!(k0_cond1 i == 1#1) && !(k0_cond2 i == 1#1)) = false
  unfold k0_cond1 k0_cond2
  have h8 : (i 1).val < 8 := (i 1).isLt
  generalize (i 1).val = k at h8
  match k, h8 with
  | 0, _ => decide
  | 1, _ => decide
  | 2, _ => decide
  | 3, _ => decide
  | 4, _ => decide
  | 5, _ => decide
  | 6, _ => decide
  | 7, _ => decide
  | k + 8, h => exact absurd h (by omega)

/-- A staging buffer of each output window, through which its contents are stated. -/
abbrev VO2 : View sig .tc .vmem S1x1x1x512 .f32 := (Memref.whole cc0_stg2_0 : Memref sig .tc .vmem S1x1x1x512 .f32).view
abbrev VO3 : View sig .tc .vmem S1x1x4096 .f32 := (Memref.whole cc0_stg3_0 : Memref sig .tc .vmem S1x1x4096 .f32).view

/-- Each window's current staging memref at point t, as the pipeline passes it, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.Kernel.Body

end
-- ==== Proof.Kernel.RunA.lean ====
/-
  The tile body at the first row tile of a batch (case A): the row minima are stored, and the running column
  minima are SET to this tile's; whatever the two output buffers held before is overwritten.
-/
import proofs.«160829_g28724741276335_cont_9to1_1365_9_alg».proof.Proof.Kernel.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers in case A, with the proof that on whole
    staging memrefs — the two inputs at their contents x0, x1 — the body runs to a continuation that gets the inputs
    back as they were and each output buffer with its pieces written. The pieces are found by running the body. -/
noncomputable def kernelRun_A (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : k0_cond1 i = 1#1) (hc2 : ¬ k0_cond2 i = 1#1)
    (x0 : Vec F S1x512x3 .f32) (x1 : Vec F S1x3x4096 .f32) :
    Σ' (L2 : List (View.Piece (Elt F) S1x1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_tile_kernel i arg2 harg2 arg3 harg3 arg4 harg4 arg5 harg5) K } := by
  refine ⟨?_, ?_, fun E K => ?run⟩
  case run =>
    simp only [cc0__chamfer_tile_kernel_eq_skeleton]; unfold cc0__chamfer_tile_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.Kernel.RunB.lean ====
/-
  The tile body at a later row tile of a batch (case B): the row minima are stored, and the running column minima
  xo3 the earlier tiles left are LOWERED by this tile's.
-/
import proofs.«160829_g28724741276335_cont_9to1_1365_9_alg».proof.Proof.Kernel.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers in case B, with the proof that on whole
    staging memrefs — the two inputs at their contents x0, x1 — the body runs to a continuation that gets the inputs
    back as they were and each output buffer with its pieces written. The pieces are found by running the body. -/
noncomputable def kernelRun_B (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : ¬ k0_cond1 i = 1#1) (hc2 : k0_cond2 i = 1#1)
    (x0 : Vec F S1x512x3 .f32) (x1 : Vec F S1x3x4096 .f32) (xo3 : Vec F S1x1x4096 .f32) :
    Σ' (L2 : List (View.Piece (Elt F) S1x1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_tile_kernel i arg2 harg2 arg3 harg3 arg4 harg4 arg5 harg5) K } := by
  refine ⟨?_, ?_, fun E K => ?run⟩
  case run =>
    simp only [cc0__chamfer_tile_kernel_eq_skeleton]; unfold cc0__chamfer_tile_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.Kernel.Frame.lean ====
/-
  The tile body's obligation at every grid point, the run of the whole program, and the frame.

  After the body at point t the row-minimum buffer holds that point's row minima, and the column-minimum
  buffer holds: at the first row tile of a batch this tile's column minima; at a later tile the minimum of what
  the tile before left and this tile's — the buffer is not written back between the tiles of a batch (only after
  the eighth), so each tile finds what the one before left. That recursion over the points is `outsAt`.
-/
import proofs.«160829_g28724741276335_cont_9to1_1365_9_alg».proof.Proof.Kernel.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover their buffers -/

theorem cover_A_2 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x512x3 .f32) (x1 : Vec F S1x3x4096 .f32) (y : S1x1x1x512.Idx) :
    ∃ pc ∈ (kernelRun_A c i arg2 harg2 arg3 harg3 arg4 harg4 arg5 harg5 hc1 hc2 x0 x1).1, y ∈ pc.1.set :=
  View.cover_of_tiledL (kernelRun_A c i arg2 harg2 arg3 harg3 arg4 harg4 arg5 harg5 hc1 hc2 x0 x1).1 S1x1x1x512.size (by sl_kernel_rfl) y
theorem cover_A_3 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x512x3 .f32) (x1 : Vec F S1x3x4096 .f32) (y : S1x1x4096.Idx) :
    ∃ pc ∈ (kernelRun_A c i arg2 harg2 arg3 harg3 arg4 harg4 arg5 harg5 hc1 hc2 x0 x1).2.1, y ∈ pc.1.set :=
  View.cover_of_tiledL (kernelRun_A c i arg2 harg2 arg3 harg3 arg4 harg4 arg5 harg5 hc1 hc2 x0 x1).2.1 S1x1x4096.size (by sl_kernel_rfl) y
theorem cover_B_2 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x512x3 .f32) (x1 : Vec F S1x3x4096 .f32) (xo3 : Vec F S1x1x4096 .f32) (y : S1x1x1x512.Idx) :
    ∃ pc ∈ (kernelRun_B c i arg2 harg2 arg3 harg3 arg4 harg4 arg5 harg5 hc1 hc2 x0 x1 xo3).1, y ∈ pc.1.set :=
  View.cover_of_tiledL (kernelRun_B c i arg2 harg2 arg3 harg3 arg4 harg4 arg5 harg5 hc1 hc2 x0 x1 xo3).1 S1x1x1x512.size (by sl_kernel_rfl) y
theorem cover_B_3 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x512x3 .f32) (x1 : Vec F S1x3x4096 .f32) (xo3 : Vec F S1x1x4096 .f32) (y : S1x1x4096.Idx) :
    ∃ pc ∈ (kernelRun_B c i arg2 harg2 arg3 harg3 arg4 harg4 arg5 harg5 hc1 hc2 x0 x1 xo3).2.1, y ∈ pc.1.set :=
  View.cover_of_tiledL (kernelRun_B c i arg2 harg2 arg3 harg3 arg4 harg4 arg5 harg5 hc1 hc2 x0 x1 xo3).2.1 S1x1x4096.size (by sl_kernel_rfl) y

/-! ## The two cases at a grid point -/

/-- Case A's run at point t (a first row tile), on the point's staging memrefs and input blocks. -/
abbrev runA (c : Dev nD) (t : Fin cfg0.N) (h0 : t.val % 8 = 0) :=
  kernelRun_A (F := F) c (grid0.coords t) (ms0 t) (hs0 t) (ms1 t) (hs1 t) (ms2 t) (hs2 t) (ms3 t) (hs3 t)
    ((hcond1 t).mpr h0) (fun h => ((hcond2 t).mp h) h0) (iblk m c 0 t) (iblk m c 1 t)
/-- Case B's run at point t (a later row tile), the running column minima at xo3. -/
abbrev runB (c : Dev nD) (t : Fin cfg0.N) (h0 : ¬ t.val % 8 = 0) (xo3 : Vec F S1x1x4096 .f32) :=
  kernelRun_B (F := F) c (grid0.coords t) (ms0 t) (hs0 t) (ms1 t) (hs1 t) (ms2 t) (hs2 t) (ms3 t) (hs3 t)
    (fun h => h0 ((hcond1 t).mp h)) ((hcond2 t).mpr h0) (iblk m c 0 t) (iblk m c 1 t) xo3

/-- What case A leaves in the two output buffers: its pieces read back. -/
def outA (c : Dev nD) (t : Fin cfg0.N) (h0 : t.val % 8 = 0) : Vec F S1x1x1x512 .f32 × Vec F S1x1x4096 .f32 :=
  (VO2.read (Elt F) (VO2.writes (Elt F) VO2.junk (runA m c t h0).1), VO3.read (Elt F) (VO3.writes (Elt F) VO3.junk (runA m c t h0).2.1))
/-- What case B leaves in them. -/
def outB (c : Dev nD) (t : Fin cfg0.N) (h0 : ¬ t.val % 8 = 0) (xo3 : Vec F S1x1x4096 .f32) : Vec F S1x1x1x512 .f32 × Vec F S1x1x4096 .f32 :=
  (VO2.read (Elt F) (VO2.writes (Elt F) VO2.junk (runB m c t h0 xo3).1), VO3.read (Elt F) (VO3.writes (Elt F) VO3.junk (runB m c t h0 xo3).2.1))

/-- What the two output buffers hold after the body at position n, by recursion on the position: a first row tile
    starts afresh, a later one continues from the column minima the position before left. -/
def outsAt (c : Dev nD) : (n : ℕ) → n < cfg0.N → Vec F S1x1x1x512 .f32 × Vec F S1x1x4096 .f32
  | 0, hn => outA m c ⟨0, hn⟩ (Nat.zero_mod _)
  | n + 1, hn =>
    if h0 : (n + 1) % 8 = 0 then outA m c ⟨n + 1, hn⟩ h0
    else outB m c ⟨n + 1, hn⟩ h0 (outsAt c n (Nat.lt_of_succ_lt hn)).2

theorem outsAt_A (c : Dev nD) (t : Fin cfg0.N) (h0 : t.val % 8 = 0) : outsAt m c t.val t.isLt = outA m c t h0 := by
  obtain ⟨n, hn⟩ := t
  cases n with
  | zero => exact rfl
  | succ n => exact (dif_pos h0).trans rfl

theorem outsAt_B (c : Dev nD) (t : Fin cfg0.N) (h0 : ¬ t.val % 8 = 0) :
    outsAt m c t.val t.isLt = outB m c t h0 (outsAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each input's buffer at its block and the two
    outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later row tile the column-minimum buffer holds what the body left at the point before: the point is not
    the first, and the buffer is written back only after the eighth tile of a batch. -/
theorem before3_B (c : Dev nD) (t : Fin cfg0.N) (h0 : ¬ t.val % 8 = 0) (d) :
    (dats m 0 c).before 3 t d = (outsAt m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point is a first row tile or a later one, and
    at a later one the column-minimum buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 8 = 0
  · rw [outsAt_A m c t h0]
    unfold outA
    dsimp only
    iintro ⟨HΦ, Ho, ⟨%d0, H0⟩, ⟨%d1, H1⟩, ⟨%d2, H2⟩, ⟨%d3, H3⟩⟩
    iapply ((runA m c t h0).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_A_2 c _ _ _ _ _ _ _ _ _ _ _ _ _)
    · unfold owns; iexists _; isplitr
      swap; · iexact H3
      ipureintro; exact View.read_writes_of_cover _ _ _ _ _ (cover_A_3 c _ _ _ _ _ _ _ _ _ _ _ _ _)
  · rw [outsAt_B m c t h0]
    simp only [before3_B m c t h0]
    unfold outB
    dsimp only
    iintro ⟨HΦ, Ho, ⟨%d0, H0⟩, ⟨%d1, H1⟩, ⟨%d2, H2⟩, ⟨%d3, H3⟩⟩
    iapply ((runB m c t h0 _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_B_2 c _ _ _ _ _ _ _ _ _ _ _ _ _ _)
    · unfold owns; iexists _; isplitr
      swap; · iexact H3
      ipureintro; exact View.read_writes_of_cover _ _ _ _ _ (cover_B_3 c _ _ _ _ _ _ _ _ _ _ _ _ _ _)

/-- The library's body obligation, at every point (the column-minimum window is stored into at every point). -/
theorem body_obligation (c : Dev nD) : BodyObligation (dats (F := F) m 0 c) (defs₀ (F := F)) Variants.none () Set.univ := fun t => by
  rw [bigSep_W0, bigSep_W0]
  have h3 : idle0 3 (grid0.coords t) = false := live3 _
  simp only [h3]
  exact sound_body m c t

/-! ## The run and the frame -/

set_option backward.isDefEq.respectTransparency.types false in
/-- Every weakly fair execution of the program terminates, faulting nowhere, and every final state has every array of
    the pipeline at what the proof data computes and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Runs.lean ====
/-
  What the two runs of the tile body share. The grid is 8 batches × 8 row tiles, point t = 8·b + i.
  The body's first branch (the running column minimum is SET to this tile's) is taken exactly at the
  first tile of a batch, t % 8 = 0; its second (the running minimum is LOWERED by this tile's) exactly
  at the other seven. So the column-minimum window is stored into at every point, and the body has two
  cases: A at t % 8 = 0, B elsewhere.
-/
import proofs.«160829_g28724741276335_cont_9to1_1365_9_alg».proof.Proof.Gen.KernelIdeal.Frame
import proofs.«160829_g28724741276335_cont_9to1_1365_9_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the first row tile of each batch. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken at every other row tile. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two branches stores the column minima whatever the row tile: a tile index is zero or positive. -/
theorem live3 : ∀ i : grid0.Coords, cfg0.idle 3 i = false := by
  intro i
  show (!(k0_cond1 i == 1#1) && !(k0_cond2 i == 1#1)) = false
  unfold k0_cond1 k0_cond2
  have h8 : (i 1).val < 8 := (i 1).isLt
  generalize (i 1).val = k at h8
  match k, h8 with
  | 0, _ => decide
  | 1, _ => decide
  | 2, _ => decide
  | 3, _ => decide
  | 4, _ => decide
  | 5, _ => decide
  | 6, _ => decide
  | 7, _ => decide
  | k + 8, h => exact absurd h (by omega)

/-- A staging buffer of each output window, through which its contents are stated. -/
abbrev VO2 : View sig .tc .vmem S1x1x1x512 .f32 := (Memref.whole cc0_stg2_0 : Memref sig .tc .vmem S1x1x1x512 .f32).view
abbrev VO3 : View sig .tc .vmem S1x1x4096 .f32 := (Memref.whole cc0_stg3_0 : Memref sig .tc .vmem S1x1x4096 .f32).view

/-- Each window's current staging memref at point t, as the pipeline passes it, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.KernelIdeal.Body

end
-- ==== Proof.KernelIdeal.RunA.lean ====
/-
  The tile body at the first row tile of a batch (case A): the row minima are stored, and the running column
  minima are SET to this tile's; whatever the two output buffers held before is overwritten.
-/
import proofs.«160829_g28724741276335_cont_9to1_1365_9_alg».proof.Proof.KernelIdeal.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers in case A, with the proof that on whole
    staging memrefs — the two inputs at their contents x0, x1 — the body runs to a continuation that gets the inputs
    back as they were and each output buffer with its pieces written. The pieces are found by running the body. -/
noncomputable def kernelRun_A (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : k0_cond1 i = 1#1) (hc2 : ¬ k0_cond2 i = 1#1)
    (x0 : Vec F S1x512x3 .f32) (x1 : Vec F S1x3x4096 .f32) :
    Σ' (L2 : List (View.Piece (Elt F) S1x1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_tile_kernel i arg2 harg2 arg3 harg3 arg4 harg4 arg5 harg5) K } := by
  refine ⟨?_, ?_, fun E K => ?run⟩
  case run =>
    simp only [cc0__chamfer_tile_kernel_eq_skeleton]; unfold cc0__chamfer_tile_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KernelIdeal.RunB.lean ====
/-
  The tile body at a later row tile of a batch (case B): the row minima are stored, and the running column minima
  xo3 the earlier tiles left are LOWERED by this tile's.
-/
import proofs.«160829_g28724741276335_cont_9to1_1365_9_alg».proof.Proof.KernelIdeal.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers in case B, with the proof that on whole
    staging memrefs — the two inputs at their contents x0, x1 — the body runs to a continuation that gets the inputs
    back as they were and each output buffer with its pieces written. The pieces are found by running the body. -/
noncomputable def kernelRun_B (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : ¬ k0_cond1 i = 1#1) (hc2 : k0_cond2 i = 1#1)
    (x0 : Vec F S1x512x3 .f32) (x1 : Vec F S1x3x4096 .f32) (xo3 : Vec F S1x1x4096 .f32) :
    Σ' (L2 : List (View.Piece (Elt F) S1x1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_tile_kernel i arg2 harg2 arg3 harg3 arg4 harg4 arg5 harg5) K } := by
  refine ⟨?_, ?_, fun E K => ?run⟩
  case run =>
    simp only [cc0__chamfer_tile_kernel_eq_skeleton]; unfold cc0__chamfer_tile_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KernelIdeal.Frame.lean ====
/-
  The tile body's obligation at every grid point, the run of the whole program, and the frame.

  After the body at point t the row-minimum buffer holds that point's row minima, and the column-minimum
  buffer holds: at the first row tile of a batch this tile's column minima; at a later tile the minimum of what
  the tile before left and this tile's — the buffer is not written back between the tiles of a batch (only after
  the eighth), so each tile finds what the one before left. That recursion over the points is `outsAt`.
-/
import proofs.«160829_g28724741276335_cont_9to1_1365_9_alg».proof.Proof.KernelIdeal.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover their buffers -/

theorem cover_A_2 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x512x3 .f32) (x1 : Vec F S1x3x4096 .f32) (y : S1x1x1x512.Idx) :
    ∃ pc ∈ (kernelRun_A c i arg2 harg2 arg3 harg3 arg4 harg4 arg5 harg5 hc1 hc2 x0 x1).1, y ∈ pc.1.set :=
  View.cover_of_tiledL (kernelRun_A c i arg2 harg2 arg3 harg3 arg4 harg4 arg5 harg5 hc1 hc2 x0 x1).1 S1x1x1x512.size (by sl_kernel_rfl) y
theorem cover_A_3 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x512x3 .f32) (x1 : Vec F S1x3x4096 .f32) (y : S1x1x4096.Idx) :
    ∃ pc ∈ (kernelRun_A c i arg2 harg2 arg3 harg3 arg4 harg4 arg5 harg5 hc1 hc2 x0 x1).2.1, y ∈ pc.1.set :=
  View.cover_of_tiledL (kernelRun_A c i arg2 harg2 arg3 harg3 arg4 harg4 arg5 harg5 hc1 hc2 x0 x1).2.1 S1x1x4096.size (by sl_kernel_rfl) y
theorem cover_B_2 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x512x3 .f32) (x1 : Vec F S1x3x4096 .f32) (xo3 : Vec F S1x1x4096 .f32) (y : S1x1x1x512.Idx) :
    ∃ pc ∈ (kernelRun_B c i arg2 harg2 arg3 harg3 arg4 harg4 arg5 harg5 hc1 hc2 x0 x1 xo3).1, y ∈ pc.1.set :=
  View.cover_of_tiledL (kernelRun_B c i arg2 harg2 arg3 harg3 arg4 harg4 arg5 harg5 hc1 hc2 x0 x1 xo3).1 S1x1x1x512.size (by sl_kernel_rfl) y
theorem cover_B_3 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x512x3 .f32) (x1 : Vec F S1x3x4096 .f32) (xo3 : Vec F S1x1x4096 .f32) (y : S1x1x4096.Idx) :
    ∃ pc ∈ (kernelRun_B c i arg2 harg2 arg3 harg3 arg4 harg4 arg5 harg5 hc1 hc2 x0 x1 xo3).2.1, y ∈ pc.1.set :=
  View.cover_of_tiledL (kernelRun_B c i arg2 harg2 arg3 harg3 arg4 harg4 arg5 harg5 hc1 hc2 x0 x1 xo3).2.1 S1x1x4096.size (by sl_kernel_rfl) y

/-! ## The two cases at a grid point -/

/-- Case A's run at point t (a first row tile), on the point's staging memrefs and input blocks. -/
abbrev runA (c : Dev nD) (t : Fin cfg0.N) (h0 : t.val % 8 = 0) :=
  kernelRun_A (F := F) c (grid0.coords t) (ms0 t) (hs0 t) (ms1 t) (hs1 t) (ms2 t) (hs2 t) (ms3 t) (hs3 t)
    ((hcond1 t).mpr h0) (fun h => ((hcond2 t).mp h) h0) (iblk m c 0 t) (iblk m c 1 t)
/-- Case B's run at point t (a later row tile), the running column minima at xo3. -/
abbrev runB (c : Dev nD) (t : Fin cfg0.N) (h0 : ¬ t.val % 8 = 0) (xo3 : Vec F S1x1x4096 .f32) :=
  kernelRun_B (F := F) c (grid0.coords t) (ms0 t) (hs0 t) (ms1 t) (hs1 t) (ms2 t) (hs2 t) (ms3 t) (hs3 t)
    (fun h => h0 ((hcond1 t).mp h)) ((hcond2 t).mpr h0) (iblk m c 0 t) (iblk m c 1 t) xo3

/-- What case A leaves in the two output buffers: its pieces read back. -/
def outA (c : Dev nD) (t : Fin cfg0.N) (h0 : t.val % 8 = 0) : Vec F S1x1x1x512 .f32 × Vec F S1x1x4096 .f32 :=
  (VO2.read (Elt F) (VO2.writes (Elt F) VO2.junk (runA m c t h0).1), VO3.read (Elt F) (VO3.writes (Elt F) VO3.junk (runA m c t h0).2.1))
/-- What case B leaves in them. -/
def outB (c : Dev nD) (t : Fin cfg0.N) (h0 : ¬ t.val % 8 = 0) (xo3 : Vec F S1x1x4096 .f32) : Vec F S1x1x1x512 .f32 × Vec F S1x1x4096 .f32 :=
  (VO2.read (Elt F) (VO2.writes (Elt F) VO2.junk (runB m c t h0 xo3).1), VO3.read (Elt F) (VO3.writes (Elt F) VO3.junk (runB m c t h0 xo3).2.1))

/-- What the two output buffers hold after the body at position n, by recursion on the position: a first row tile
    starts afresh, a later one continues from the column minima the position before left. -/
def outsAt (c : Dev nD) : (n : ℕ) → n < cfg0.N → Vec F S1x1x1x512 .f32 × Vec F S1x1x4096 .f32
  | 0, hn => outA m c ⟨0, hn⟩ (Nat.zero_mod _)
  | n + 1, hn =>
    if h0 : (n + 1) % 8 = 0 then outA m c ⟨n + 1, hn⟩ h0
    else outB m c ⟨n + 1, hn⟩ h0 (outsAt c n (Nat.lt_of_succ_lt hn)).2

theorem outsAt_A (c : Dev nD) (t : Fin cfg0.N) (h0 : t.val % 8 = 0) : outsAt m c t.val t.isLt = outA m c t h0 := by
  obtain ⟨n, hn⟩ := t
  cases n with
  | zero => exact rfl
  | succ n => exact (dif_pos h0).trans rfl

theorem outsAt_B (c : Dev nD) (t : Fin cfg0.N) (h0 : ¬ t.val % 8 = 0) :
    outsAt m c t.val t.isLt = outB m c t h0 (outsAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each input's buffer at its block and the two
    outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later row tile the column-minimum buffer holds what the body left at the point before: the point is not
    the first, and the buffer is written back only after the eighth tile of a batch. -/
theorem before3_B (c : Dev nD) (t : Fin cfg0.N) (h0 : ¬ t.val % 8 = 0) (d) :
    (dats m 0 c).before 3 t d = (outsAt m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point is a first row tile or a later one, and
    at a later one the column-minimum buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 8 = 0
  · rw [outsAt_A m c t h0]
    unfold outA
    dsimp only
    iintro ⟨HΦ, Ho, ⟨%d0, H0⟩, ⟨%d1, H1⟩, ⟨%d2, H2⟩, ⟨%d3, H3⟩⟩
    iapply ((runA m c t h0).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_A_2 c _ _ _ _ _ _ _ _ _ _ _ _ _)
    · unfold owns; iexists _; isplitr
      swap; · iexact H3
      ipureintro; exact View.read_writes_of_cover _ _ _ _ _ (cover_A_3 c _ _ _ _ _ _ _ _ _ _ _ _ _)
  · rw [outsAt_B m c t h0]
    simp only [before3_B m c t h0]
    unfold outB
    dsimp only
    iintro ⟨HΦ, Ho, ⟨%d0, H0⟩, ⟨%d1, H1⟩, ⟨%d2, H2⟩, ⟨%d3, H3⟩⟩
    iapply ((runB m c t h0 _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_B_2 c _ _ _ _ _ _ _ _ _ _ _ _ _ _)
    · unfold owns; iexists _; isplitr
      swap; · iexact H3
      ipureintro; exact View.read_writes_of_cover _ _ _ _ _ (cover_B_3 c _ _ _ _ _ _ _ _ _ _ _ _ _ _)

/-- The library's body obligation, at every point (the column-minimum window is stored into at every point). -/
theorem body_obligation (c : Dev nD) : BodyObligation (dats (F := F) m 0 c) (defs₀ (F := F)) Variants.none () Set.univ := fun t => by
  rw [bigSep_W0, bigSep_W0]
  have h3 : idle0 3 (grid0.coords t) = false := live3 _
  simp only [h3]
  exact sound_body m c t

/-! ## The run and the frame -/

set_option backward.isDefEq.respectTransparency.types false in
/-- Every weakly fair execution of the program terminates, faulting nowhere, and every final state has every array of
    the pipeline at what the proof data computes and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdeal.Pieces.lean ====
/-
  What the tile body's stores leave, read back as values: in either case the row-minimum buffer ends at the tile's
  row minima; the column-minimum buffer ends at the tile's column minima at a first row tile, and at the minimum of
  what it held and the tile's column minima at a later one. Each buffer is written by ONE store covering it, whose
  loads read the whole input buffers, so the buffer's contents are that store's payload.
-/
import proofs.«160829_g28724741276335_cont_9to1_1365_9_alg».proof.Proof.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (m : (ℓ : Loc nD τ sig) → Buf (Elt F) ℓ)

theorem piecesA_2 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x512x3 .f32) (x1 : Vec F S1x3x4096 .f32) :
    VO2.read (Elt F) (VO2.writes (Elt F) VO2.junk (kernelRun_A c i arg2 harg2 arg3 harg3 arg4 harg4 arg5 harg5 hc1 hc2 x0 x1).1) = k0_pay2 x0 x1 := by
  rw [View.read_writes_eq_canon _ _ _ (cover_A_2 c i arg2 harg2 arg3 harg3 arg4 harg4 arg5 harg5 hc1 hc2 x0 x1)]
  unfold kernelRun_A
  dsimp only
  rw [View.canon_unit_zero hz4]
  simp only [View.readAt_eq_ld, harg2.read_unread, harg3.read_unread, View.ld_unit_zero (S := S1x512x3) hz3, View.ld_unit_zero (S := S1x3x4096) hz3]

theorem piecesA_3 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x512x3 .f32) (x1 : Vec F S1x3x4096 .f32) :
    VO3.read (Elt F) (VO3.writes (Elt F) VO3.junk (kernelRun_A c i arg2 harg2 arg3 harg3 arg4 harg4 arg5 harg5 hc1 hc2 x0 x1).2.1) = k0_pay3 x0 x1 := by
  rw [View.read_writes_eq_canon _ _ _ (cover_A_3 c i arg2 harg2 arg3 harg3 arg4 harg4 arg5 harg5 hc1 hc2 x0 x1)]
  unfold kernelRun_A
  dsimp only
  rw [View.canon_unit_zero hz3]
  simp only [View.readAt_eq_ld, harg2.read_unread, harg3.read_unread, View.ld_unit_zero (S := S1x512x3) hz3, View.ld_unit_zero (S := S1x3x4096) hz3]

theorem piecesB_2 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x512x3 .f32) (x1 : Vec F S1x3x4096 .f32) (xo3 : Vec F S1x1x4096 .f32) :
    VO2.read (Elt F) (VO2.writes (Elt F) VO2.junk (kernelRun_B c i arg2 harg2 arg3 harg3 arg4 harg4 arg5 harg5 hc1 hc2 x0 x1 xo3).1) = k0_pay2 x0 x1 := by
  rw [View.read_writes_eq_canon _ _ _ (cover_B_2 c i arg2 harg2 arg3 harg3 arg4 harg4 arg5 harg5 hc1 hc2 x0 x1 xo3)]
  unfold kernelRun_B
  dsimp only
  rw [View.canon_unit_zero hz4]
  simp only [View.readAt_eq_ld, harg2.read_unread, harg3.read_unread, View.ld_unit_zero (S := S1x512x3) hz3, View.ld_unit_zero (S := S1x3x4096) hz3]

theorem piecesB_3 (c : Dev nD) (i : grid0.Coords) (arg2 : Memref sig .tc .vmem S1x512x3 .f32) (harg2 : arg2.IsWhole) (arg3 : Memref sig .tc .vmem S1x3x4096 .f32) (harg3 : arg3.IsWhole)
    (arg4 : Memref sig .tc .vmem S1x1x1x512 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x512x3 .f32) (x1 : Vec F S1x3x4096 .f32) (xo3 : Vec F S1x1x4096 .f32) :
    VO3.read (Elt F) (VO3.writes (Elt F) VO3.junk (kernelRun_B c i arg2 harg2 arg3 harg3 arg4 harg4 arg5 harg5 hc1 hc2 x0 x1 xo3).2.1) = k0_pay4 x0 x1 xo3 := by
  rw [View.read_writes_eq_canon _ _ _ (cover_B_3 c i arg2 harg2 arg3 harg3 arg4 harg4 arg5 harg5 hc1 hc2 x0 x1 xo3)]
  unfold kernelRun_B
  dsimp only
  rw [View.canon_unit_zero hz3]
  simp only [View.readAt_eq_ld, harg2.read_unread, harg3.read_unread, harg5.read_unread, View.ld_unit_zero (S := S1x512x3) hz3, View.ld_unit_zero (S := S1x3x4096) hz3,
    View.ld_unit_zero (S := S1x1x4096) hz3]

/-- After the body at any point the row-minimum buffer holds the tile's row minima. -/
theorem outsAt_fst (c : Dev nD) (t : Fin cfg0.N) :
    (outsAt m c t.val t.isLt).1 = k0_pay2 (iblk m c 0 t) (iblk m c 1 t) := by
  by_cases h0 : t.val % 8 = 0
  · rw [outsAt_A m c t h0]; unfold outA; dsimp only; exact piecesA_2 (F := F) c (grid0.coords t) (ms0 t) (hs0 t) (ms1 t) (hs1 t) (ms2 t) (hs2 t) (ms3 t) (hs3 t) ((hcond1 t).mpr h0) (fun h => ((hcond2 t).mp h) h0) (iblk m c 0 t) (iblk m c 1 t)
  · rw [outsAt_B m c t h0]; unfold outB; dsimp only; exact piecesB_2 (F := F) c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (outsAt m c (t.val - 1) (Nat.lt_of_le_of_lt (Nat.sub_le _ _) t.isLt)).2

/-- After the body at a first row tile the column-minimum buffer holds the tile's column minima. -/
theorem outsAt_snd_A (c : Dev nD) (t : Fin cfg0.N) (h0 : t.val % 8 = 0) :
    (outsAt m c t.val t.isLt).2 = k0_pay3 (iblk m c 0 t) (iblk m c 1 t) := by
  rw [outsAt_A m c t h0]; unfold outA; dsimp only; exact piecesA_3 (F := F) c (grid0.coords t) (ms0 t) (hs0 t) (ms1 t) (hs1 t) (ms2 t) (hs2 t) (ms3 t) (hs3 t) ((hcond1 t).mpr h0) (fun h => ((hcond2 t).mp h) h0) (iblk m c 0 t) (iblk m c 1 t)

/-- After the body at a later row tile it holds the minimum of what the point before left and the tile's column minima. -/
theorem outsAt_snd_B (c : Dev nD) (t : Fin cfg0.N) (h0 : ¬ t.val % 8 = 0) :
    (outsAt m c t.val t.isLt).2
      = k0_pay4 (iblk m c 0 t) (iblk m c 1 t) (outsAt m c (t.val - 1) (Nat.lt_of_le_of_lt (Nat.sub_le _ _) t.isLt)).2 := by
  rw [outsAt_B m c t h0]; unfold outB; dsimp only; exact piecesB_3 (F := F) c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (outsAt m c (t.val - 1) (Nat.lt_of_le_of_lt (Nat.sub_le _ _) t.isLt)).2

end Cert.KernelIdeal.Body

end
-- ==== Proof.Spec.lean ====
/-
  The chamfer loss of two clouds of 8 × 4096 points in three coordinates, as ONE function of the
  two argument arrays on the extended reals:

    d[b, n, m] = (Σ_c P[b,n,c]² + Σ_c T[b,m,c]²) − 2 · Σ_c P[b,n,c] · T[b,m,c]
    loss       = (Σ_{b,n} inf_m d[b,n,m]) / 32768 + (Σ_{b,m} inf_n d[b,n,m]) / 32768

  Both programs are compared to this one function. The infimum over an index is the lattice
  infimum on the extended reals (the top element for an empty family, which is what a minimum
  started from +∞ computes). The literals 2 and 32768 stay the f32 words the programs print.
-/
import Idealize.ShloMosaic.PureOps.Ideal
import Idealize.ShloMosaic.Lib.ValueIdx

noncomputable section

namespace Cert.Chamfer

open Idealize.ShloMosaic Idealize.ShloMosaic.ValueIdx

/-- A cloud: 8 batches of 4096 points with 3 coordinates each. -/
abbrev Cloud : Type := (⟨3, ![8, 4096, 3]⟩ : Shape).Idx → EReal

/-- The literal 2 of both programs. -/
def two : EReal := Ideal.ofBits .f32 0x40000000#32
/-- The literal 32768 = 8 · 4096 both programs divide their sums by. -/
def cnt : EReal := Ideal.ofBits .f32 0x47000000#32

/-- The squared norm of point n of batch b. -/
def sq (A : Cloud) (b : Fin 8) (n : Fin 4096) : EReal := ∑ c : Fin 3, A (ix3 b n c) * A (ix3 b n c)
/-- The inner product of point n of P with point m of T, in batch b. -/
def cross (P T : Cloud) (b : Fin 8) (n m : Fin 4096) : EReal := ∑ c : Fin 3, P (ix3 b n c) * T (ix3 b m c)
/-- The squared distance in the expanded form both programs compute. -/
def dist (P T : Cloud) (b : Fin 8) (n m : Fin 4096) : EReal := (sq P b n + sq T b m) - two * cross P T b n m
/-- The distance from point n of P to the nearest point of T. -/
def xnear (P T : Cloud) (b : Fin 8) (n : Fin 4096) : EReal := Finset.univ.inf fun m : Fin 4096 => dist P T b n m
/-- The distance from point m of T to the nearest point of P. -/
def ynear (P T : Cloud) (b : Fin 8) (m : Fin 4096) : EReal := Finset.univ.inf fun n : Fin 4096 => dist P T b n m
/-- The chamfer loss. -/
def loss (P T : Cloud) : EReal :=
  Ideal.div (∑ b : Fin 8, ∑ n : Fin 4096, xnear P T b n) cnt + Ideal.div (∑ b : Fin 8, ∑ m : Fin 4096, ynear P T b m) cnt

end Cert.Chamfer

end
-- ==== Proof.LibMinReduce.lean ====
/-
  A minimum over one axis, on the extended reals, and the small keepdims layout steps read at an index.

  What the file offers, each for arbitrary extents:
  * a `minimumf` reduction over ONE axis of an array is, at each kept index, the fold of `min` from the
    accumulator's value over that axis's coordinates (`multiReduction_minimumf_single`); a fold of `min` started
    from the top element over all of `Fin n` is the infimum `Finset.univ.inf` (`fold_min_top_eq_inf`); and the f32
    word `0x7F800000` of +∞ denotes the top element (`ofBits_inf_f32`) — together: a minimum started from +∞ is the
    lattice infimum over the reduced axis;
  * a vector cast to a column `[a] → [a, 1]` (`shapeCast_a_a1_apply`) or under three unit axes `[a] → [1, 1, 1, a]`
    (`shapeCast_a_111a_apply`) reads the vector at its one non-unit coordinate, and a column broadcast over rows of
    any length `[a, 1] → [a, b]` reads the column at the row coordinate (`broadcastTo_a1_ab_apply`).
-/
import Idealize.ShloMosaic.Lib.ValueIdx
import Idealize.ShloMosaic.Lib.ValueLayout
import Idealize.ShloMosaic.Lib.Pipeline.Value
import Idealize.ShloMosaic.PureOps.Ideal.Laws

noncomputable section

namespace Cert.Chamfer

open Idealize.ShloMosaic Idealize.ShloMosaic.ValueIdx
open scoped BigOperators

/-! ## Keepdims casts and broadcasts read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, 1, a]` reads, at `(u, v, w, i)`, the operand at `i`. -/
theorem shapeCast_a_111a_apply {a : ℕ} (x : (⟨1, ![a]⟩ : Shape).Idx → α) (h : (⟨1, ![a]⟩ : Shape).ShapeCasts ⟨4, ![1, 1, 1, a]⟩)
    (u v w : Fin 1) (i : Fin a) : shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_four, Shape.rowMajor_val_one]
    show i.val = ((u.val * 1 + v.val) * 1 + w.val) * a + i.val
    simp only [hu, hv, hw, Nat.zero_mul, Nat.zero_add, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A minimum over one axis -/

/-- A `minimumf` reduction over one axis, read at the ideal values: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The fold of `min` from the top element over every index is the infimum over the index set. -/
theorem fold_min_top_eq_inf {n : ℕ} (f : Fin n → EReal) :
    (Finset.univ : Finset (Fin n)).fold min (⊤ : EReal) f = Finset.univ.inf f := rfl

/-- The f32 word `0x7F800000` denotes the top element. -/
theorem ofBits_inf_f32 : Ideal.ofBits .f32 0x7F800000#32 = (⊤ : EReal) := by simp [Ideal.ofBits, Ideal.ieee]

end Cert.Chamfer

end
-- ==== Proof.Payload.lean ====
/-
  The arithmetic of one tile of the kernel, read at an index on the extended reals.

  A tile pairs 512 points of the first cloud (a block v0 of shape 1 × 512 × 3) with 4096 points of the second
  (a block v2 of shape 1 × 3 × 4096, coordinates first). Its value at (r, m) is the squared distance in the
  expanded form

      tileDist v0 v2 r m = (Σ_c v0[0,r,c]² + Σ_c v2[0,c,m]²) − 2 · Σ_c v0[0,r,c] · v2[0,c,m],

  the row norms and column norms being lane sums from the zero word, the cross term a product of the two blocks
  into a zero accumulator (the narrowing of the operands is the identity on the extended reals), and the literal
  2 the f32 word itself. The values the body stores are the minima of the tile along each axis, folds of `min`
  started from the word of +∞, which is the top element: so they are the infima of `tileDist` over the columns,
  respectively over the rows; the last stored value is the minimum of what was there before with the column
  infimum.
-/
import proofs.«160829_g28724741276335_cont_9to1_1365_9_alg».proof.Proof.Gen.KernelIdeal.Skeleton
import proofs.«160829_g28724741276335_cont_9to1_1365_9_alg».proof.Proof.Spec
import proofs.«160829_g28724741276335_cont_9to1_1365_9_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

namespace Cert.Chamfer

open Idealize.ShloMosaic Idealize.ShloMosaic.ValueIdx Cert.KernelIdeal Cert.KernelIdeal.Gen
open scoped BigOperators

/-! ## The tile of squared distances -/

/-- The squared distance, in the expanded form, between row `r` of the left block and column `m` of the right block. -/
def tileDist (v0 : S1x512x3.Idx → EReal) (v2 : S1x3x4096.Idx → EReal) (r : Fin 512) (m : Fin 4096) : EReal :=
  ((∑ c : Fin 3, v0 (ix3 0 r c) * v0 (ix3 0 r c)) + (∑ c : Fin 3, v2 (ix3 0 c m) * v2 (ix3 0 c m)))
    - two * ∑ c : Fin 3, v0 (ix3 0 r c) * v2 (ix3 0 c m)

theorem lift_row3 (r : Fin 512) (k : Fin 3) : reduces_S512x3_S512.lift (ix1 r) k = ix2 r k := by
  funext a; apply Fin.ext
  match a with
  | ⟨0, _⟩ => rfl
  | ⟨1, _⟩ => rfl

theorem lift_col3 (m : Fin 4096) (k : Fin 3) : reduces_S3x4096_S4096.lift (ix1 m) k = ix2 k m := by
  funext a; apply Fin.ext
  match a with
  | ⟨0, _⟩ => rfl
  | ⟨1, _⟩ => rfl

/-- The row sums of squares, kept as a column and broadcast over the tile. -/
theorem xx_apply (v1 : FVec Ideal S512x3 .f32) (hφ : FKind.Formats .f32)
    (hacc : (0x00000000#32 : BitVec 32) = FKind.add.neutral .f32 hφ) (r : Fin 512) (m : Fin 4096) :
    broadcastTo S512x4096 (shapeCast S512x1 (multiReduction .add [1] S512 (mulf v1 v1) 0x00000000#32 reduces_S512x3_S512 hφ hacc)
        shapeCasts_S512_S512x1) broadcasts_S512x1_S512x4096 (ix2 r m)
      = ∑ c : Fin 3, v1 (ix2 r c) * v1 (ix2 r c) := by
  refine (broadcastTo_a1_ab_apply _ _ r m).trans ?_
  refine (shapeCast_a_a1_apply _ _ r 0).trans ?_
  refine (Ideal.multiReduction_add_single _ _ reduces_S512x3_S512 hφ hacc (ix1 r)).trans ?_
  refine Finset.sum_congr rfl fun k _ => ?_
  exact congrArg (fun i => v1 i * v1 i) (lift_row3 r k)

/-- The column sums of squares, kept as a row and broadcast over the tile. -/
theorem yy_apply (v3 : FVec Ideal S3x4096 .f32) (hφ : FKind.Formats .f32)
    (hacc : (0x00000000#32 : BitVec 32) = FKind.add.neutral .f32 hφ) (r : Fin 512) (m : Fin 4096) :
    broadcastTo S512x4096 (shapeCast S1x4096 (multiReduction .add [0] S4096 (mulf v3 v3) 0x00000000#32 reduces_S3x4096_S4096 hφ hacc)
        shapeCasts_S4096_S1x4096) broadcasts_S1x4096_S512x4096 (ix2 r m)
      = ∑ c : Fin 3, v3 (ix2 c m) * v3 (ix2 c m) := by
  refine (broadcastTo_1b_ab_apply _ _ r m).trans ?_
  refine (shapeCast_a_1a_apply _ _ 0 m).trans ?_
  refine (Ideal.multiReduction_add_single _ _ reduces_S3x4096_S4096 hφ hacc (ix1 m)).trans ?_
  refine Finset.sum_congr rfl fun k _ => ?_
  exact congrArg (fun i => v3 i * v3 i) (lift_col3 m k)

theorem lhs_0 (i : S512x4096.Idx) (q : dot_S512x3_S3x4096_S512x4096_1_0_0_1_n_n.contr.Idx) : (dot_S512x3_S3x4096_S512x4096_1_0_0_1_n_n.lhsIdx i q 0).val = (i 0).val := by
  unfold DotDims.lhsIdx
  rw [dif_neg (show ¬(0 : Fin S512x3.rank) ∈ dot_S512x3_S3x4096_S512x4096_1_0_0_1_n_n.lhsBatch by decide), dif_pos (show (0 : Fin S512x3.rank) ∈ dot_S512x3_S3x4096_S512x4096_1_0_0_1_n_n.lhsNonContracting by decide)]
  rfl
theorem lhs_1 (i : S512x4096.Idx) (q : dot_S512x3_S3x4096_S512x4096_1_0_0_1_n_n.contr.Idx) : (dot_S512x3_S3x4096_S512x4096_1_0_0_1_n_n.lhsIdx i q 1).val = (q ⟨0, by decide⟩).val :=
  dot_S512x3_S3x4096_S512x4096_1_0_0_1_n_n.lhsIdx_val_of_single rfl i q
theorem rhs_0 (i : S512x4096.Idx) (q : dot_S512x3_S3x4096_S512x4096_1_0_0_1_n_n.contr.Idx) : (dot_S512x3_S3x4096_S512x4096_1_0_0_1_n_n.rhsIdx i q 0).val = (q ⟨0, by decide⟩).val :=
  dot_S512x3_S3x4096_S512x4096_1_0_0_1_n_n.rhsIdx_val_of_single rfl i q
theorem rhs_1 (i : S512x4096.Idx) (q : dot_S512x3_S3x4096_S512x4096_1_0_0_1_n_n.contr.Idx) : (dot_S512x3_S3x4096_S512x4096_1_0_0_1_n_n.rhsIdx i q 1).val = (i 1).val := by
  unfold DotDims.rhsIdx
  rw [dif_neg (show ¬(1 : Fin S3x4096.rank) ∈ dot_S512x3_S3x4096_S512x4096_1_0_0_1_n_n.rhsBatch by decide), dif_pos (show (1 : Fin S3x4096.rank) ∈ dot_S512x3_S3x4096_S512x4096_1_0_0_1_n_n.rhsNonContracting by decide)]
  rfl

/-- The product of the two blocks into a zero accumulator: the inner products of rows with columns. -/
theorem xy_apply (v1 : FVec Ideal S512x3 .f32) (v3 : FVec Ideal S3x4096 .f32) (r : Fin 512) (m : Fin 4096) :
    matmul dot_S512x3_S3x4096_S512x4096_1_0_0_1_n_n none (truncf .bf16 v1 bitsLt_bf16_f32) (truncf .bf16 v3 bitsLt_bf16_f32)
        (constant (F := Ideal) S512x4096 .f32 0x00000000#32) (ix2 r m)
      = ∑ c : Fin 3, v1 (ix2 r c) * v3 (ix2 c m) := by
  simp only [matmul]
  rw [Ideal.matmul_constant_zero_apply, ← Equiv.sum_comp (ValueIdx.contrEquiv1 dot_S512x3_S3x4096_S512x4096_1_0_0_1_n_n 3 rfl rfl).symm]
  refine Finset.sum_congr rfl fun k _ => ?_
  have hk := ValueIdx.contrEquiv1_symm_val dot_S512x3_S3x4096_S512x4096_1_0_0_1_n_n 3 rfl rfl k
  have el : dot_S512x3_S3x4096_S512x4096_1_0_0_1_n_n.lhsIdx (ix2 r m) ((ValueIdx.contrEquiv1 dot_S512x3_S3x4096_S512x4096_1_0_0_1_n_n 3 rfl rfl).symm k) = ix2 r k := funext fun a => Fin.ext (by
    match a with
    | ⟨0, _⟩ => exact lhs_0 _ _
    | ⟨1, _⟩ => exact (lhs_1 _ _).trans hk)
  have er : dot_S512x3_S3x4096_S512x4096_1_0_0_1_n_n.rhsIdx (ix2 r m) ((ValueIdx.contrEquiv1 dot_S512x3_S3x4096_S512x4096_1_0_0_1_n_n 3 rfl rfl).symm k) = ix2 k m := funext fun a => Fin.ext (by
    match a with
    | ⟨0, _⟩ => exact (rhs_0 _ _).trans hk
    | ⟨1, _⟩ => exact rhs_1 _ _)
  rw [el, er]
  rfl

theorem pay1_apply (v0 : Vec Ideal S1x512x3 .f32) (v2 : Vec Ideal S1x3x4096 .f32) (r : Fin 512) (m : Fin 4096) :
    k0_pay1 (F := Ideal) v0 v2 (ix2 r m) = tileDist v0 v2 r m := by
  unfold k0_pay1
  simp only [subf_apply, addf_apply, mulf_apply, broadcast_apply]
  refine congrArg₂ (· - ·) (congrArg₂ (· + ·) ?_ ?_) (congrArg₂ (· * ·) rfl ?_)
  · refine (xx_apply _ _ _ r m).trans (Finset.sum_congr rfl fun c _ => ?_)
    rw [shapeCast_1ab_ab_apply]
  · refine (yy_apply _ _ _ r m).trans (Finset.sum_congr rfl fun c _ => ?_)
    rw [shapeCast_1ab_ab_apply]
  · refine (xy_apply _ _ r m).trans (Finset.sum_congr rfl fun c _ => ?_)
    rw [shapeCast_1ab_ab_apply, shapeCast_1ab_ab_apply]

/-! ## The minima of the tile along its two axes -/

theorem lift_row4096 (r : Fin 512) (k : Fin 4096) : reduces_S512x4096_S512.lift (ix1 r) k = ix2 r k := by
  funext a; apply Fin.ext
  match a with
  | ⟨0, _⟩ => rfl
  | ⟨1, _⟩ => rfl

theorem lift_col512 (m : Fin 4096) (k : Fin 512) : reduces_S512x4096_S4096.lift (ix1 m) k = ix2 k m := by
  funext a; apply Fin.ext
  match a with
  | ⟨0, _⟩ => rfl
  | ⟨1, _⟩ => rfl

/-- The row minima of the tile, started from `+∞`: the infimum over the columns. -/
theorem rowmin_apply (v0 : Vec Ideal S1x512x3 .f32) (v2 : Vec Ideal S1x3x4096 .f32) (hφ : FKind.Formats .f32)
    (hacc : (0x7F800000#32 : BitVec 32) = FKind.minimumf.neutral .f32 hφ) (r : Fin 512) :
    multiReduction .minimumf [1] S512 (k0_pay1 (F := Ideal) v0 v2) 0x7F800000#32 reduces_S512x4096_S512 hφ hacc (ix1 r)
      = Finset.univ.inf fun m : Fin 4096 => tileDist v0 v2 r m := by
  refine (multiReduction_minimumf_single _ _ reduces_S512x4096_S512 hφ hacc (ix1 r)).trans ?_
  have hb : (FloatOps.ofBits (F := Ideal) .f32 0x7F800000#32 : EReal) = ⊤ := ofBits_inf_f32
  have e : (k0_pay1 (F := Ideal) v0 v2 ∘ reduces_S512x4096_S512.lift (ix1 r)) = fun m : Fin 4096 => tileDist v0 v2 r m :=
    funext fun (k : Fin 4096) =>
      (congrArg (k0_pay1 (F := Ideal) v0 v2) (lift_row4096 r k)).trans (pay1_apply v0 v2 r k)
  rw [hb, e]
  exact fold_min_top_eq_inf _

/-- The column minima of the tile, started from `+∞`: the infimum over the rows. -/
theorem colmin_apply (v0 : Vec Ideal S1x512x3 .f32) (v2 : Vec Ideal S1x3x4096 .f32) (hφ : FKind.Formats .f32)
    (hacc : (0x7F800000#32 : BitVec 32) = FKind.minimumf.neutral .f32 hφ) (m : Fin 4096) :
    multiReduction .minimumf [0] S4096 (k0_pay1 (F := Ideal) v0 v2) 0x7F800000#32 reduces_S512x4096_S4096 hφ hacc (ix1 m)
      = Finset.univ.inf fun r : Fin 512 => tileDist v0 v2 r m := by
  refine (multiReduction_minimumf_single _ _ reduces_S512x4096_S4096 hφ hacc (ix1 m)).trans ?_
  have hb : (FloatOps.ofBits (F := Ideal) .f32 0x7F800000#32 : EReal) = ⊤ := ofBits_inf_f32
  have e : (k0_pay1 (F := Ideal) v0 v2 ∘ reduces_S512x4096_S4096.lift (ix1 m)) = fun r : Fin 512 => tileDist v0 v2 r m :=
    funext fun (k : Fin 512) =>
      (congrArg (k0_pay1 (F := Ideal) v0 v2) (lift_col512 m k)).trans (pay1_apply v0 v2 k m)
  rw [hb, e]
  exact fold_min_top_eq_inf _

theorem pay2_apply (v0 : Vec Ideal S1x512x3 .f32) (v2 : Vec Ideal S1x3x4096 .f32) (r : Fin 512) :
    k0_pay2 (F := Ideal) v0 v2 (ix4 0 0 0 r) = Finset.univ.inf fun m : Fin 4096 => tileDist v0 v2 r m := by
  unfold k0_pay2
  refine (shapeCast_a_111a_apply _ _ 0 0 0 r).trans ?_
  exact rowmin_apply v0 v2 _ _ r

theorem pay3_apply (v0 : Vec Ideal S1x512x3 .f32) (v2 : Vec Ideal S1x3x4096 .f32) (m : Fin 4096) :
    k0_pay3 (F := Ideal) v0 v2 (ix3 0 0 m) = Finset.univ.inf fun r : Fin 512 => tileDist v0 v2 r m := by
  unfold k0_pay3
  refine (shapeCast_ab_1ab_apply _ _ 0 0 m).trans ?_
  refine (shapeCast_a_1a_apply _ _ 0 m).trans ?_
  exact colmin_apply v0 v2 _ _ m

theorem pay4_apply (v0 : Vec Ideal S1x512x3 .f32) (v2 : Vec Ideal S1x3x4096 .f32) (v32 : Vec Ideal S1x1x4096 .f32) (m : Fin 4096) :
    k0_pay4 (F := Ideal) v0 v2 v32 (ix3 0 0 m) = min (v32 (ix3 0 0 m)) (k0_pay3 (F := Ideal) v0 v2 (ix3 0 0 m)) := by
  unfold k0_pay4
  show min (shapeCast S1x1x4096 v32 shapeCasts_S1x1x4096_S1x1x4096 (ix3 0 0 m)) (k0_pay3 (F := Ideal) v0 v2 (ix3 0 0 m)) = _
  rw [shapeCast_self]

end Cert.Chamfer

end
-- ==== Proof.Blocks.lean ====
/-
  The index facts of the kernel's four windows at a grid point t = 8 · b + i (b the batch, i the row tile):
  which entries of the argument arrays the two input blocks hold, which entries of a whole-array function
  the two output blocks are, and that the written-back blocks cover the two output arrays.
-/
import proofs.«160829_g28724741276335_cont_9to1_1365_9_alg».proof.Proof.Gen.KernelIdeal.Frame
import Idealize.ShloMosaic.Lib.Pipeline.Value
import Idealize.ShloMosaic.Lib.ValueIdx

set_option maxRecDepth 16384

noncomputable section

namespace Cert.Chamfer

open Idealize.ShloMosaic Idealize.ShloMosaic.TcCoe Idealize.ShloMosaic.ValueIdx Idealize.ShloMosaic.Tactic
open Idealize.SL Idealize.SL.Sem
open Cert.KernelIdeal Cert.KernelIdeal.Gen

/-- The batch of grid point t. -/
def bt (t : Fin cfg0.N) : Fin 8 := ⟨t.val / 8, by have h : t.val < grid0.N := t.isLt; rw [N_0] at h; omega⟩
/-- The row tile of grid point t. -/
def it (t : Fin cfg0.N) : Fin 8 := ⟨t.val % 8, by omega⟩

/-- The four index maps over the grid: the block indices at point t are (b, i, 0), (b, 0, 0), (b, i, 0, 0), (b, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 4) = t.val / 8 ∧ win0_2.index t (1 : Fin 4) = t.val % 8 ∧ win0_2.index t (2 : Fin 4) = 0
    ∧ win0_2.index t (3 : Fin 4) = 0
    ∧ win0_3.index t (0 : Fin 3) = t.val / 8 ∧ win0_3.index t (1 : Fin 3) = 0 ∧ win0_3.index t (2 : Fin 3) = 0 :=
  (by decide +kernel : ∀ t : Fin grid0.N, _)

variable (m : (ℓ : Loc nD τ sig) → Buf (Elt Ideal) ℓ) (c : Dev nD) (t : Fin cfg0.N)

/-- The first window's block at t holds rows 512 · i … 512 · i + 511 of batch b of the first cloud. -/
theorem iblk0_apply (r : Fin 512) (k : Fin 3) :
    iblk (F := Ideal) m c 0 t (ix3 (0 : Fin 1) r k)
      = m ((c : Thread nD τ).loc main_arg0) (ix3 (bt t) (⟨512 * (t.val % 8) + r.val, by omega⟩ : Fin 4096) k) := by
  obtain ⟨e0, e1, e2, -⟩ := idx_facts t
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 3 + 1 * k.val = k.val; omega

/-- The second input array, as the region finds it, is the second cloud with its last two axes exchanged. -/
theorem V_transposed :
    (V m c main_call0_v0 : S8x3x4096.Idx → EReal)
      = transpose S8x3x4096 [0, 2, 1] (m ((c : Thread nD τ).loc main_arg1)) transposes_S8x4096x3_S8x3x4096_0_2_1 := by
  show StableHlo.after hostOps0 (fun b => m (c, b)) (Proc.devRef .tc main_call0_v0) = _
  after_results
  rfl

/-- The second window's block at t holds, at (k, j), coordinate k of point j of batch b of the second cloud. -/
theorem iblk1_apply (k : Fin 3) (j : Fin 4096) :
    iblk (F := Ideal) m c 1 t (ix3 (0 : Fin 1) k j) = m ((c : Thread nD τ).loc main_arg1) (ix3 (bt t) j k) := by
  obtain ⟨-, -, -, e0, e1, e2, -⟩ := idx_facts t
  show (V m c main_call0_v0 : S8x3x4096.Idx → EReal) (((cfg0.win 1).blk t).view.emb (ix3 (0 : Fin 1) k j)) = _
  rw [V_transposed]
  refine transpose_apply _ _ _ _ _ fun a => ?_
  match a with
  | ⟨0, _⟩ => show t.val / 8 = win0_1.index t (0 : Fin 3) * 1 + 1 * 0; omega
  | ⟨1, _⟩ => show k.val = win0_1.index t (1 : Fin 3) * 3 + 1 * k.val; omega
  | ⟨2, _⟩ => show j.val = win0_1.index t (2 : Fin 3) * 4096 + 1 * j.val; omega

/-! ## The output windows -/

/-- The first output window's block at t of a whole-array function G is G's entries (b, i, 0, r). -/
theorem read_blk2 (G : Buf (Elt Ideal) ((cfg0.win 2).arr.view.loc (c.tc : Thread nD τ))) (r : Fin 512) :
    ((cfg0.win 2).blk t).view.read (Elt Ideal) G (ix4 (0 : Fin 1) (0 : Fin 1) (0 : Fin 1) r)
      = G (ix4 (bt t) (it t) (0 : Fin 1) r) := by
  obtain ⟨-, -, -, -, -, -, e0, e1, e2, e3, -⟩ := idx_facts t
  show G (((cfg0.win 2).blk t).view.emb (ix4 (0 : Fin 1) (0 : Fin 1) (0 : Fin 1) r)) = _
  refine congrArg G (funext fun a => Fin.ext ?_)
  match a with
  | ⟨0, _⟩ => show win0_2.index t (0 : Fin 4) * 1 + 1 * 0 = t.val / 8; omega
  | ⟨1, _⟩ => show win0_2.index t (1 : Fin 4) * 1 + 1 * 0 = t.val % 8; omega
  | ⟨2, _⟩ => show win0_2.index t (2 : Fin 4) * 1 + 1 * 0 = 0; omega
  | ⟨3, _⟩ => show win0_2.index t (3 : Fin 4) * 512 + 1 * r.val = r.val; omega

/-- The second output window's block at t of a whole-array function G is G's entries (b, 0, j). -/
theorem read_blk3 (G : Buf (Elt Ideal) ((cfg0.win 3).arr.view.loc (c.tc : Thread nD τ))) (j : Fin 4096) :
    ((cfg0.win 3).blk t).view.read (Elt Ideal) G (ix3 (0 : Fin 1) (0 : Fin 1) j) = G (ix3 (bt t) (0 : Fin 1) j) := by
  obtain ⟨-, -, -, -, -, -, -, -, -, -, e0, e1, e2⟩ := idx_facts t
  show G (((cfg0.win 3).blk t).view.emb (ix3 (0 : Fin 1) (0 : Fin 1) j)) = _
  refine congrArg G (funext fun a => Fin.ext ?_)
  match a with
  | ⟨0, _⟩ => show win0_3.index t (0 : Fin 3) * 1 + 1 * 0 = t.val / 8; omega
  | ⟨1, _⟩ => show win0_3.index t (1 : Fin 3) * 1 + 1 * 0 = 0; omega
  | ⟨2, _⟩ => show win0_3.index t (2 : Fin 3) * 4096 + 1 * j.val = j.val; omega

/-- An index of the first output array is in point t's block iff each coordinate is in the block's range. -/
theorem mem_blk2 (t : Fin cfg0.N) (i : S8x8x1x512.Idx) :
    i ∈ ((cfg0.win 2).blk t).view.set ↔ ∀ a : Fin 4, win0_2.index t a * S1x1x1x512.size a ≤ (i a).val
      ∧ (i a).val < win0_2.index t a * S1x1x1x512.size a + S1x1x1x512.size a := by
  show i ∈ ((View.whole main_call0_v1_0).slice (win0_2.rect t)).set ↔ _
  rw [View.set_slice_whole, Rect.mem_set_unit]
  exact Iff.rfl

/-- An index of the second output array is in point t's block iff each coordinate is in the block's range. -/
theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_call0_v1_1).slice (win0_3.rect t)).set ↔ _
  rw [View.set_slice_whole, Rect.mem_set_unit]
  exact Iff.rfl

/-- Every entry (b, i, 0, r) of the first output array is written back, by point 8 · b + i. -/
theorem cover2 : ∀ i : S8x8x1x512.Idx, ∃ t : Fin cfg0.N, (cfg0.win 2).flush t = true ∧ i ∈ ((cfg0.win 2).blk t).view.set := by
  intro i
  have h0 : (i 0).val < 8 := (i 0).isLt
  have h1 : (i 1).val < 8 := (i 1).isLt
  have h2 : (i 2).val < 1 := (i 2).isLt
  have h3 : (i 3).val < 512 := (i 3).isLt
  obtain ⟨tt, htt⟩ : ∃ tt : Fin cfg0.N, tt.val = 8 * (i 0).val + (i 1).val :=
    ⟨⟨8 * (i 0).val + (i 1).val, by show _ < grid0.N; rw [N_0]; omega⟩, rfl⟩
  obtain ⟨-, -, -, -, -, -, e0, e1, e2, e3, -⟩ := idx_facts tt
  refine ⟨tt, flush0_2 tt, ?_⟩
  rw [mem_blk2]
  intro a
  match a with
  | ⟨0, _⟩ => show win0_2.index tt (0 : Fin 4) * 1 ≤ (i 0).val ∧ (i 0).val < win0_2.index tt (0 : Fin 4) * 1 + 1; omega
  | ⟨1, _⟩ => show win0_2.index tt (1 : Fin 4) * 1 ≤ (i 1).val ∧ (i 1).val < win0_2.index tt (1 : Fin 4) * 1 + 1; omega
  | ⟨2, _⟩ => show win0_2.index tt (2 : Fin 4) * 1 ≤ (i 2).val ∧ (i 2).val < win0_2.index tt (2 : Fin 4) * 1 + 1; omega
  | ⟨3, _⟩ => show win0_2.index tt (3 : Fin 4) * 512 ≤ (i 3).val ∧ (i 3).val < win0_2.index tt (3 : Fin 4) * 512 + 512; omega

/-- Every entry (b, 0, j) of the second output array is written back, by the last point 8 · b + 7 of its batch. -/
theorem cover3 : ∀ i : S8x1x4096.Idx, ∃ t : Fin cfg0.N, (cfg0.win 3).flush t = true ∧ i ∈ ((cfg0.win 3).blk t).view.set := by
  intro i
  have h0 : (i 0).val < 8 := (i 0).isLt
  have h1 : (i 1).val < 1 := (i 1).isLt
  have h2 : (i 2).val < 4096 := (i 2).isLt
  obtain ⟨tt, htt⟩ : ∃ tt : Fin cfg0.N, tt.val = 8 * (i 0).val + 7 :=
    ⟨⟨8 * (i 0).val + 7, by show _ < grid0.N; rw [N_0]; omega⟩, rfl⟩
  obtain ⟨-, -, -, -, -, -, -, -, -, -, e0, e1, e2⟩ := idx_facts tt
  refine ⟨tt, (flush0_3 tt).mpr (by omega), ?_⟩
  rw [mem_blk3]
  intro a
  match a with
  | ⟨0, _⟩ => show win0_3.index tt (0 : Fin 3) * 1 ≤ (i 0).val ∧ (i 0).val < win0_3.index tt (0 : Fin 3) * 1 + 1; omega
  | ⟨1, _⟩ => show win0_3.index tt (1 : Fin 3) * 1 ≤ (i 1).val ∧ (i 1).val < win0_3.index tt (1 : Fin 3) * 1 + 1; omega
  | ⟨2, _⟩ => show win0_3.index tt (2 : Fin 3) * 4096 ≤ (i 2).val ∧ (i 2).val < win0_3.index tt (2 : Fin 3) * 4096 + 4096; omega

end Cert.Chamfer

end
-- ==== Proof.TailLoss.lean ====
/-
  The closing algebra of the chamfer loss on the extended reals.

  * The 4096 points of a batch split into 8 tiles of 512: n = 512 · i + r. A sum over all entries of an
    array of extents 8 × 8 × 1 × 512 (resp. 8 × 1 × 4096) is therefore the double sum Σ_b Σ_n.
  * The infimum over 4096 points is the minimum of the 8 tile infima, and a running minimum over the
    tiles computes it (min is associative, commutative and idempotent).
-/
import proofs.«160829_g28724741276335_cont_9to1_1365_9_alg».proof.Proof.Spec
import Idealize.ShloMosaic.PureOps.Ideal.Laws

noncomputable section

namespace Cert.Chamfer

open Idealize.ShloMosaic Idealize.ShloMosaic.ValueIdx

/-- A point index is a tile index and an offset inside the tile: n = 512 · i + r. -/
def tileEquiv : Fin 8 × Fin 512 ≃ Fin 4096 where
  toFun p := ⟨512 * p.1.val + p.2.val, by omega⟩
  invFun n := (⟨n.val / 512, by omega⟩, ⟨n.val % 512, by omega⟩)
  left_inv p := by
    rcases p with ⟨⟨i, hi⟩, ⟨r, hr⟩⟩
    refine Prod.ext (Fin.ext ?_) (Fin.ext ?_)
    · show (512 * i + r) / 512 = i
      omega
    · show (512 * i + r) % 512 = r
      omega
  right_inv n := by
    refine Fin.ext ?_
    show 512 * (n.val / 512) + n.val % 512 = n.val
    omega

/-- The indices of an 8 × 8 × 1 × 512 array are the triples (batch, tile, offset). -/
def idxEquivX : (⟨4, ![8, 8, 1, 512]⟩ : Shape).Idx ≃ Fin 8 × Fin 8 × Fin 512 where
  toFun j := (j 0, j 1, j 3)
  invFun p := ix4 p.1 p.2.1 0 p.2.2
  left_inv j := by
    have h2 : j 2 = (0 : Fin 1) := Fin.ext (by show (j 2).val = 0; have : (j 2).val < 1 := (j 2).isLt; omega)
    have e := eq_ix4 j
    rw [h2] at e
    exact e.symm
  right_inv _ := rfl

/-- The indices of an 8 × 1 × 4096 array are the pairs (batch, point). -/
def idxEquivY : (⟨3, ![8, 1, 4096]⟩ : Shape).Idx ≃ Fin 8 × Fin 4096 where
  toFun j := (j 0, j 2)
  invFun p := ix3 p.1 0 p.2
  left_inv j := by
    have h1 : j 1 = (0 : Fin 1) := Fin.ext (by show (j 1).val = 0; have : (j 1).val < 1 := (j 1).isLt; omega)
    have e := eq_ix3 j
    rw [h1] at e
    exact e.symm
  right_inv _ := rfl

/-- A double sum over tiles and offsets is the sum over the points. -/
theorem sum_tiles (f : Fin 4096 → EReal) :
    ∑ i : Fin 8, ∑ r : Fin 512, f ⟨512 * i.val + r.val, by omega⟩ = ∑ n : Fin 4096, f n := by
  rw [← Equiv.sum_comp tileEquiv f, Fintype.sum_prod_type]
  rfl

theorem sum_X (X : (⟨4, ![8, 8, 1, 512]⟩ : Shape).Idx → EReal) :
    ∑ j, X j = ∑ b : Fin 8, ∑ i : Fin 8, ∑ r : Fin 512, X (ix4 b i 0 r) := by
  rw [← Equiv.sum_comp idxEquivX.symm X, Fintype.sum_prod_type]
  refine Finset.sum_congr rfl fun b _ => ?_
  rw [Fintype.sum_prod_type]
  rfl

theorem sum_Y (Y : (⟨3, ![8, 1, 4096]⟩ : Shape).Idx → EReal) :
    ∑ j, Y j = ∑ b : Fin 8, ∑ m : Fin 4096, Y (ix3 b 0 m) := by
  rw [← Equiv.sum_comp idxEquivY.symm Y, Fintype.sum_prod_type]
  rfl

variable (P T : Cloud)

/-- The two normalised sums of nearest distances, read off arrays holding them, are the loss. -/
theorem tail_eq_loss (X : (⟨4, ![8, 8, 1, 512]⟩ : Shape).Idx → EReal) (Y : (⟨3, ![8, 1, 4096]⟩ : Shape).Idx → EReal)
    (hX : ∀ (b i : Fin 8) (r : Fin 512), X (ix4 b i 0 r) = xnear P T b ⟨512 * i.val + r.val, by omega⟩)
    (hY : ∀ (b : Fin 8) (m : Fin 4096), Y (ix3 b 0 m) = ynear P T b m) :
    Ideal.div (Ideal.ofBits .f32 0x00000000#32 + ∑ j, X j) cnt + Ideal.div (Ideal.ofBits .f32 0x00000000#32 + ∑ j, Y j) cnt
      = loss P T := by
  rw [Ideal.ofBits_zero_f32, zero_add, zero_add, sum_X, sum_Y, loss]
  congr 2
  · refine Finset.sum_congr rfl fun b _ => ?_
    rw [← sum_tiles (fun n => xnear P T b n)]
    refine Finset.sum_congr rfl fun i _ => Finset.sum_congr rfl fun r _ => ?_
    exact hX b i r
  · refine Finset.sum_congr rfl fun b _ => Finset.sum_congr rfl fun m _ => ?_
    exact hY b m

/-- The infimum over the points is the infimum over the tiles of the tile infima. -/
theorem inf_tiles (f : Fin 4096 → EReal) :
    Finset.univ.inf f
      = Finset.univ.inf fun i : Fin 8 => Finset.univ.inf fun r : Fin 512 => f ⟨512 * i.val + r.val, by omega⟩ := by
  rw [← Finset.univ_map_equiv_to_embedding tileEquiv, Finset.inf_map, ← Finset.univ_product_univ,
    Finset.inf_product_left]
  rfl

/-- A running minimum over the 8 tiles, started from the first tile, ends at the nearest distance. -/
theorem ynear_of_steps (b : Fin 8) (m : Fin 4096) (acc : ℕ → EReal) (tile : Fin 8 → EReal)
    (htile : ∀ i : Fin 8, tile i = Finset.univ.inf fun r : Fin 512 => dist P T b ⟨512 * i.val + r.val, by omega⟩ m)
    (h0 : acc 0 = tile 0) (hs : ∀ i (h : i + 1 < 8), acc (i + 1) = min (acc i) (tile ⟨i + 1, h⟩)) :
    acc 7 = ynear P T b m := by
  have e : ynear P T b m = Finset.univ.inf tile := by
    rw [ynear, inf_tiles (fun n => dist P T b n m)]
    exact Finset.inf_congr rfl fun i _ => (htile i).symm
  have h7 : acc 7 = min (min (min (min (min (min (min (tile 0) (tile 1)) (tile 2)) (tile 3)) (tile 4)) (tile 5)) (tile 6)) (tile 7) := by
    rw [hs 6 (by omega), hs 5 (by omega), hs 4 (by omega), hs 3 (by omega), hs 2 (by omega), hs 1 (by omega),
      hs 0 (by omega), h0]
    rfl
  rw [e, h7]
  refine le_antisymm (Finset.le_inf fun i _ => ?_) ?_
  · have hi : i = 0 ∨ i = 1 ∨ i = 2 ∨ i = 3 ∨ i = 4 ∨ i = 5 ∨ i = 6 ∨ i = 7 := by
      rcases i with ⟨i, hi⟩
      simp only [Fin.ext_iff]
      show i = 0 ∨ i = 1 ∨ i = 2 ∨ i = 3 ∨ i = 4 ∨ i = 5 ∨ i = 6 ∨ i = 7
      omega
    rcases hi with rfl | rfl | rfl | rfl | rfl | rfl | rfl | rfl <;> simp [min_le_iff]
  · simp only [le_min_iff]
    exact ⟨⟨⟨⟨⟨⟨⟨Finset.inf_le (Finset.mem_univ _), Finset.inf_le (Finset.mem_univ _)⟩, Finset.inf_le (Finset.mem_univ _)⟩,
      Finset.inf_le (Finset.mem_univ _)⟩, Finset.inf_le (Finset.mem_univ _)⟩, Finset.inf_le (Finset.mem_univ _)⟩,
      Finset.inf_le (Finset.mem_univ _)⟩, Finset.inf_le (Finset.mem_univ _)⟩

end Cert.Chamfer

end
-- ==== Proof.KernelValue.lean ====
/-
  What the kernel's two output buffers hold point by point, on the extended reals, in the specification's terms.
  Point t = 8·b + i works on batch b and on the rows 512·i … 512·i + 511 of the first cloud. Its tile of squared
  distances is d[b, 512·i + r, j]; so its row minima are the distances from those rows to their nearest point of the
  second cloud, and its column minima are, for each point j of the second cloud, the least distance to one of those
  512 rows. The column-minimum buffer, set at i = 0 and lowered at i = 1 … 7, holds after the eighth tile the least
  distance over all 4096 rows.
-/
import proofs.«160829_g28724741276335_cont_9to1_1365_9_alg».proof.Proof.KernelIdeal.Pieces
import proofs.«160829_g28724741276335_cont_9to1_1365_9_alg».proof.Proof.Payload
import proofs.«160829_g28724741276335_cont_9to1_1365_9_alg».proof.Proof.Blocks
import proofs.«160829_g28724741276335_cont_9to1_1365_9_alg».proof.Proof.TailLoss

set_option maxRecDepth 16384

noncomputable section

namespace Cert.Chamfer

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Body

variable (m : (ℓ : Loc nD τ sig) → Buf (Elt Ideal) ℓ) (ρ : Dev nD → PrngReg) (c : Dev nD)

/-- The two clouds as the program is launched with them. -/
abbrev cP : Cloud := m ((c : Thread nD τ).loc main_arg0)
abbrev cT : Cloud := m ((c : Thread nD τ).loc main_arg1)

/-- The tile of point t = 8·b + i is the squared distances of rows 512·i + r of batch b. -/
theorem tile_eq (t : Fin cfg0.N) (b i : Fin 8) (ht : t.val = 8 * b.val + i.val) (r : Fin 512) (j : Fin 4096) :
    tileDist (iblk m c 0 t) (iblk m c 1 t) r j = dist (cP m c) (cT m c) b ⟨512 * i.val + r.val, by omega⟩ j := by
  have hb : bt t = b := Fin.ext (by show t.val / 8 = b.val; omega)
  have hi : (⟨512 * (t.val % 8) + r.val, by omega⟩ : Fin 4096) = ⟨512 * i.val + r.val, by omega⟩ :=
    Fin.ext (by show 512 * (t.val % 8) + r.val = 512 * i.val + r.val; omega)
  unfold tileDist dist sq cross
  simp only [iblk0_apply, iblk1_apply, hb, hi]

/-- After the body at point t = 8·b + i the row-minimum buffer holds the nearest-point distances of rows 512·i + r. -/
theorem xrow (t : Fin cfg0.N) (b i : Fin 8) (ht : t.val = 8 * b.val + i.val) (r : Fin 512) :
    (outsAt m c t.val t.isLt).1 (ix4 0 0 0 r) = xnear (cP m c) (cT m c) b ⟨512 * i.val + r.val, by omega⟩ := by
  rw [outsAt_fst, pay2_apply]
  exact congrArg (Finset.univ.inf) (funext fun j => tile_eq m c t b i ht r j)

/-- The tile's column minima: for point j of the second cloud, the least distance to one of the tile's 512 rows. -/
theorem tileCol_eq (t : Fin cfg0.N) (b i : Fin 8) (ht : t.val = 8 * b.val + i.val) (j : Fin 4096) :
    k0_pay3 (F := Ideal) (iblk m c 0 t) (iblk m c 1 t) (ix3 0 0 j)
      = Finset.univ.inf fun r : Fin 512 => dist (cP m c) (cT m c) b ⟨512 * i.val + r.val, by omega⟩ j := by
  rw [pay3_apply]
  exact congrArg (Finset.univ.inf) (funext fun r => tile_eq m c t b i ht r j)

theorem outsAt_congr (n n' : ℕ) (h : n < cfg0.N) (h' : n' < cfg0.N) (e : n = n') :
    outsAt m c n h = outsAt m c n' h' := by subst e; rfl

/-- What the column-minimum buffer holds at entry j after the k-th row tile of batch b. -/
def colAt (b : Fin 8) (j : Fin 4096) (k : ℕ) : EReal :=
  if h : 8 * b.val + k < cfg0.N then (outsAt m c (8 * b.val + k) h).2 (ix3 0 0 j) else ⊤

/-- After the eighth row tile of batch b the column-minimum buffer holds the distances from the second cloud's points
    to their nearest point of the first: the first tile sets it, each later tile lowers it by its own column minima. -/
theorem ycol (b : Fin 8) (j : Fin 4096) (h7 : 8 * b.val + 7 < cfg0.N) :
    (outsAt m c (8 * b.val + 7) h7).2 (ix3 0 0 j) = ynear (cP m c) (cT m c) b j := by
  have hN : cfg0.N = 64 := N_0
  have hb : b.val < 8 := b.isLt
  have key := ynear_of_steps (cP m c) (cT m c) b j (colAt m c b j)
    (fun i : Fin 8 => k0_pay3 (F := Ideal) (iblk m c 0 ⟨8 * b.val + i.val, by omega⟩) (iblk m c 1 ⟨8 * b.val + i.val, by omega⟩) (ix3 0 0 j))
    (fun i => tileCol_eq m c ⟨8 * b.val + i.val, by omega⟩ b i rfl j)
    (by
      have h0 : 8 * b.val + 0 < cfg0.N := by omega
      unfold colAt
      rw [dif_pos h0]
      exact congrFun (outsAt_snd_A m c ⟨8 * b.val + 0, h0⟩ (by show (8 * b.val + 0) % 8 = 0; omega)) (ix3 0 0 j))
    (by
      intro k hk
      have h1 : 8 * b.val + (k + 1) < cfg0.N := by omega
      have h2 : 8 * b.val + k < cfg0.N := by omega
      unfold colAt
      rw [dif_pos h1, dif_pos h2]
      have e := congrFun (outsAt_snd_B m c ⟨8 * b.val + (k + 1), h1⟩ (by show ¬ (8 * b.val + (k + 1)) % 8 = 0; omega)) (ix3 0 0 j)
      refine e.trans ?_
      rw [pay4_apply]
      refine congrArg (fun z => min z _) ?_
      exact congrFun (congrArg Prod.snd (outsAt_congr m c _ _ _ h2 (by show 8 * b.val + (k + 1) - 1 = 8 * b.val + k; omega))) (ix3 0 0 j))
  unfold colAt at key
  rw [dif_pos h7] at key
  exact key

/-! ## The two result arrays after the run -/

/-- The first result array ends holding, at (b, i, 0, r), the distance from row 512·i + r of batch b to its nearest point. -/
def G2 : Buf (Elt Ideal) ((cfg0.win 2).arr.view.loc (c.tc : Thread nD τ)) :=
  fun (i : S8x8x1x512.Idx) => xnear (cP m c) (cT m c) (i 0)
    ⟨512 * (i 1).val + (i 3).val, by have h1 : (i 1).val < 8 := (i 1).isLt; have h3 : (i 3).val < 512 := (i 3).isLt; omega⟩

/-- The second ends holding, at (b, 0, j), the distance from point j of the second cloud to its nearest point of the first. -/
def G3 : Buf (Elt Ideal) ((cfg0.win 3).arr.view.loc (c.tc : Thread nD τ)) :=
  fun (i : S8x1x4096.Idx) => ynear (cP m c) (cT m c) (i 0) (i 2)

/-- Every point writes its row minima back: block (b, i) of the first result array. -/
theorem flushed2_eq (t : Fin cfg0.N) :
    (dats m 0 c).flushed 2 t = ((cfg0.win 2).blk t).view.read (Elt Ideal) (G2 m c) := by
  have hN : cfg0.N = 64 := N_0
  show (cfg0.win 2).cut (grid0.coords t) ((dats m 0 c).after 2 t) = _
  rw [after2]
  funext y
  obtain ⟨a0, a1, a2, r, rfl⟩ : ∃ (a0 a1 a2 : Fin 1) (r : Fin 512), y = ix4 a0 a1 a2 r := ⟨y 0, y 1, y 2, y 3, eq_ix4 y⟩
  obtain rfl : a0 = 0 := Subsingleton.elim _ _
  obtain rfl : a1 = 0 := Subsingleton.elim _ _
  obtain rfl : a2 = 0 := Subsingleton.elim _ _
  rw [read_blk2 c t (G2 m c) r]
  show (outsAt m c t.val t.isLt).1 (ix4 0 0 0 r) = _
  rw [xrow m c t (bt t) (it t) (by show t.val = 8 * (t.val / 8) + t.val % 8; omega) r]
  rfl

/-- The eighth row tile of a batch writes the column minima back: block b of the second result array. -/
theorem flushed3_eq (t : Fin cfg0.N) (hf : (cfg0.win 3).flush t = true) :
    (dats m 0 c).flushed 3 t = ((cfg0.win 3).blk t).view.read (Elt Ideal) (G3 m c) := by
  have hN : cfg0.N = 64 := N_0
  have h7 : t.val % 8 = 7 := (flush0_3 t).mp hf
  have ht : t.val < 64 := lt_of_lt_of_eq t.isLt hN
  show (cfg0.win 3).cut (grid0.coords t) ((dats m 0 c).after 3 t) = _
  rw [after3]
  funext y
  obtain ⟨a0, a1, j, rfl⟩ : ∃ (a0 a1 : Fin 1) (j : Fin 4096), y = ix3 a0 a1 j := ⟨y 0, y 1, y 2, eq_ix3 y⟩
  obtain rfl : a0 = 0 := Subsingleton.elim _ _
  obtain rfl : a1 = 0 := Subsingleton.elim _ _
  rw [read_blk3 c t (G3 m c) j]
  show (outsAt m c t.val t.isLt).2 (ix3 0 0 j) = _
  have e : t.val = 8 * (bt t).val + 7 := by show t.val = 8 * (t.val / 8) + 7; omega
  have h7' : 8 * (bt t).val + 7 < cfg0.N := e ▸ t.isLt
  exact (congrFun (congrArg Prod.snd (outsAt_congr m c _ _ t.isLt h7' e)) (ix3 0 0 j)).trans (ycol m c (bt t) j h7')

theorem final2 : (dats m 0 c).arrAt 2 cfg0.N = G2 m c :=
  (dats m 0 c).arrAt_eq_of_cover 2 (G2 m c) (fun t _ => flushed2_eq m c t) cover2
theorem final3 : (dats m 0 c).arrAt 3 cfg0.N = G3 m c :=
  (dats m 0 c).arrAt_eq_of_cover 3 (G3 m c) (flushed3_eq m c) cover3

end Cert.Chamfer

end
-- ==== Proof.HostTail.lean ====
/-
  The host lines that follow the region, read on the extended reals.

  After the region the program holds two arrays: the tiles' row minima (8 × 8 × 1 × 512) and the column minima
  (8 × 1 × 4096). The nine lines that follow sum each array over all of its indices from the zero word, divide each
  sum by the word of 32768 = 8 · 4096, and add the two quotients into the program's one result:

      result = (0 + Σ rows) / 32768 + (0 + Σ columns) / 32768.

  Nothing here depends on what the region computed: the statement holds for whatever the two arrays are.
-/
import proofs.«160829_g28724741276335_cont_9to1_1365_9_alg».proof.Proof.Gen.KernelIdeal.Frame
import proofs.«160829_g28724741276335_cont_9to1_1365_9_alg».proof.Proof.Spec
import Idealize.ShloMosaic.Lib.Pipeline.Value
import Idealize.ShloMosaic.Lib.StableHlo.Run
import Idealize.ShloMosaic.PureOps.Ideal.Laws

noncomputable section

namespace Cert.Chamfer

open Idealize.ShloMosaic Idealize.ShloMosaic.TcCoe Idealize.ShloMosaic.ValueIdx Idealize.SL.Sem Cert.KernelIdeal Cert.KernelIdeal.Gen
open Idealize.ShloMosaic.StableHlo
open scoped BigOperators

/-! ## The host lines after the region -/

/-- The value of the host lines after the region, as a function of the two arrays the region leaves: each array
    summed over all its indices from the zero word, each sum divided by the count, the two quotients added. -/
theorem tail_value (X2 : S8x8x1x512.Idx → EReal) (X3 : S8x1x4096.Idx → EReal) (i : S_.Idx) :
    addf (F := Ideal)
        (Host.divf (Host.reduceAdd (F := Ideal) X2 (constant (F := Ideal) S_ .f32 0x00000000#32) reducesTo_S8x8x1x512_S_d0_1_2_3 h_S_)
          (constant (F := Ideal) S_ .f32 0x47000000#32))
        (Host.divf (Host.reduceAdd (F := Ideal) X3 (constant (F := Ideal) S_ .f32 0x00000000#32) reducesTo_S8x1x4096_S_d0_1_2 h_S_)
          (constant (F := Ideal) S_ .f32 0x47000000#32)) i
      = Ideal.div (Ideal.ofBits .f32 0x00000000#32 + ∑ j : S8x8x1x512.Idx, X2 j) cnt
        + Ideal.div (Ideal.ofBits .f32 0x00000000#32 + ∑ j : S8x1x4096.Idx, X3 j) cnt := by
  have r2 : Host.reduceAdd (F := Ideal) X2 (constant (F := Ideal) S_ .f32 0x00000000#32) reducesTo_S8x8x1x512_S_d0_1_2_3 h_S_ i
      = Ideal.ofBits .f32 0x00000000#32 + ∑ j : S8x8x1x512.Idx, X2 j := by
    simp only [Host.reduceAdd, Ideal.hostReduceAdd_def]
    exact Ideal.hostReduceAdd_total reducesTo_S8x8x1x512_S_d0_1_2_3 (fun b => b.elim0) X2 _ i
  have r3 : Host.reduceAdd (F := Ideal) X3 (constant (F := Ideal) S_ .f32 0x00000000#32) reducesTo_S8x1x4096_S_d0_1_2 h_S_ i
      = Ideal.ofBits .f32 0x00000000#32 + ∑ j : S8x1x4096.Idx, X3 j := by
    simp only [Host.reduceAdd, Ideal.hostReduceAdd_def]
    exact Ideal.hostReduceAdd_total reducesTo_S8x1x4096_S_d0_1_2 (fun b => b.elim0) X3 _ i
  show Ideal.div (Host.reduceAdd (F := Ideal) X2 (constant (F := Ideal) S_ .f32 0x00000000#32) reducesTo_S8x8x1x512_S_d0_1_2_3 h_S_ i)
        (Ideal.ofBits .f32 0x47000000#32)
      + Ideal.div (Host.reduceAdd (F := Ideal) X3 (constant (F := Ideal) S_ .f32 0x00000000#32) reducesTo_S8x1x4096_S_d0_1_2 h_S_ i)
        (Ideal.ofBits .f32 0x47000000#32) = _
  rw [r2, r3]
  rfl

/-- The program's result after the host lines that follow the region, for any proof data: from the two result
    arrays as the region leaves them. -/
theorem tail_main_v0_of (m : (ℓ : Loc nD τ sig) → Buf (Elt Ideal) ℓ)
    (dats : (p : Fin 1) → (c : Dev nD) → Pipeline.Dat τ (Elt Ideal) Unit ℕ (UR sig nD τ) ℕ (cfgs p) c) (c : Dev nD)
    (A2 : S8x8x1x512.Idx → EReal) (A3 : S8x1x4096.Idx → EReal)
    (h2 : (dats 0 c).arrAt 2 cfg0.N = A2) (h3 : (dats 0 c).arrAt 3 cfg0.N = A3) :
    Pipeline.afterTail₀ cfgs dats 0 (V0 m) [hostOps1] c main_v0
      = fun _ => Ideal.div (Ideal.ofBits .f32 0x00000000#32 + ∑ j : S8x8x1x512.Idx, A2 j) cnt
          + Ideal.div (Ideal.ofBits .f32 0x00000000#32 + ∑ j : S8x1x4096.Idx, A3 j) cnt := by
  have e2 : Pipeline.withArrays (cfgs 0).spec c (V0 m c) (fun w => (dats 0 c).arrAt w (cfgs 0).N) (Proc.devRef .tc main_call0_v1_0) = A2 :=
    (Pipeline.withArrays_arr spec0 launch0.win.arr_inj c _ _ 2).trans h2
  have e3 : Pipeline.withArrays (cfgs 0).spec c (V0 m c) (fun w => (dats 0 c).arrAt w (cfgs 0).N) (Proc.devRef .tc main_call0_v1_1) = A3 :=
    (Pipeline.withArrays_arr spec0 launch0.win.arr_inj c _ _ 3).trans h3
  unfold Pipeline.afterTail₀
  show StableHlo.after hostOps1 _ (Proc.devRef .tc main_v0) = _
  after_results
  refine funext fun i => Eq.trans ?_ (tail_value A2 A3 i)
  rw [← e2, ← e3]
  rfl

/-- The array of the tiles' row minima as the region leaves it. -/
abbrev rowMins (dats : (p : Fin 1) → (c : Dev nD) → Pipeline.Dat τ (Elt Ideal) Unit ℕ (UR sig nD τ) ℕ (cfgs p) c) (c : Dev nD) :
    S8x8x1x512.Idx → EReal := (dats 0 c).arrAt 2 cfg0.N
/-- The array of the column minima as the region leaves it. -/
abbrev colMins (dats : (p : Fin 1) → (c : Dev nD) → Pipeline.Dat τ (Elt Ideal) Unit ℕ (UR sig nD τ) ℕ (cfgs p) c) (c : Dev nD) :
    S8x1x4096.Idx → EReal := (dats 0 c).arrAt 3 cfg0.N

/-- The same with the two arrays named as the proof data's. -/
theorem tail_main_v0 (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (V0 m) [hostOps1] c main_v0
      = fun _ => Ideal.div (Ideal.ofBits .f32 0x00000000#32 + ∑ j : S8x8x1x512.Idx, rowMins dats c j) cnt
          + Ideal.div (Ideal.ofBits .f32 0x00000000#32 + ∑ j : S8x1x4096.Idx, colMins dats c j) cnt :=
  tail_main_v0_of m dats c _ _ rfl rfl

end Cert.Chamfer

end
-- ==== Proof.KernelResult.lean ====
/-
  The idealized kernel's result: the host lines after the region sum each of the two arrays of nearest-point
  distances, divide each sum by 32768 and add the quotients — the chamfer loss of the two argument clouds.
-/
import proofs.«160829_g28724741276335_cont_9to1_1365_9_alg».proof.Proof.KernelValue
import proofs.«160829_g28724741276335_cont_9to1_1365_9_alg».proof.Proof.HostTail

set_option maxRecDepth 16384

noncomputable section

namespace Cert.Chamfer

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Body

variable (m : (ℓ : Loc nD τ sig) → Buf (Elt Ideal) ℓ) (ρ : Dev nD → PrngReg) (c : Dev nD)

/-! ## The result -/

/-- The host lines after the region sum the two arrays, divide each sum by 32768 and add: the chamfer loss. -/
theorem result_eq : Pipeline.afterTail₀ cfgs (dats m) 0 (V0 m) [hostOps1] c main_v0 = fun _ => loss (cP m c) (cT m c) := by
  rw [tail_main_v0_of m (dats m) c (G2 m c) (G3 m c) (final2 m c) (final3 m c)]
  funext _
  exact tail_eq_loss (cP m c) (cT m c) (G2 m c) (G3 m c) (fun b i r => rfl) (fun b j => rfl)

/-- The idealized kernel's run, read: the result at the chamfer loss of the two argument clouds, the arguments unchanged. -/
theorem kernel_run : θ_run defs (onTc (τ := τ) (main (F := Ideal))) ⟨m, fun _ => 0, ρ⟩ fun r => ∀ c : Dev nD,
      r.2.mem ((c.tc : Thread nD τ).loc main_v0) = (fun _ => loss (cP m c) (cT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.Chamfer

end
-- ==== Proof.RefLoss.lean ====
/-
  The reference program, read one operation at a time on the extended reals, computes the chamfer loss of
  the specification: its distance tensor is d[b, n, m], its two minimum-reductions started from +∞ are the
  infima over m and over n, and its two normalised total sums are the two halves of the loss.
-/
import proofs.«160829_g28724741276335_cont_9to1_1365_9_alg».proof.Proof.Gen.ReferenceIdeal.Read
import proofs.«160829_g28724741276335_cont_9to1_1365_9_alg».proof.Proof.Spec

noncomputable section

namespace Cert.Chamfer

open Idealize.ShloMosaic Idealize.ShloMosaic.ValueIdx Cert.ReferenceIdeal Cert.ReferenceIdeal.Gen Cert.ReferenceIdeal.Read

/-- The word 0x7F800000 is +∞, the top element. -/
theorem ofBits_posInf : Ideal.ofBits .f32 0x7F800000#32 = (⊤ : EReal) := by simp [Ideal.ofBits, Ideal.ieee]

/-- A fold of min started from the top element is the lattice infimum. -/
theorem fold_min_top {ι : Type} (s : Finset ι) (f : ι → EReal) : s.fold min ⊤ f = s.inf f := rfl

variable (x0 x1 : (⟨S8x4096x3, .f32⟩ : BufTy).Contents (Elt Ideal))

/-- The reference's distance tensor at (b, n, m) is d[b, n, m]. -/
theorem v12_eq_dist (b : Fin 8) (n m : Fin 4096) :
    val_main_v12 (F := Ideal) x0 x1 (ix3 b n m) = dist x0 x1 b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v5_apply,
    val_main_v1_apply, val_main_v8_apply, val_main_v6_apply, val_main_v3_apply, val_main_v10_apply,
    val_main_v4_apply, val_main_cst_apply, val_main_cst_0_apply, val_main_cst_1_apply]
  simp only [val_main_v0_apply, val_main_v2_apply, e1, e3, el, er, Ideal.subf_def, Ideal.addf_def, Ideal.mulf_def,
    Ideal.ofBits_def, Ideal.ofBits_zero_f32, zero_add]
  rfl

/-- The shape facts the two one-axis reductions are read through. -/
theorem red2 : S8x4096x4096.Reduces [2] S8x4096 := by decide
theorem red1 : S8x4096x4096.Reduces [1] S8x4096 := by decide

/-- (b, n) with coordinate k inserted on the last axis is (b, n, k). -/
theorem lift2_ix2 (b : Fin 8) (n : Fin 4096) (k : Fin (S8x4096x4096.size 2)) :
    red2.lift (ix2 b n) k = ix3 b n (⟨k.val, k.isLt⟩ : Fin 4096) := by
  funext c; apply Fin.ext
  fin_cases c <;> rfl

/-- (b, m) with coordinate k inserted on the middle axis is (b, k, m). -/
theorem lift1_ix2 (b : Fin 8) (m : Fin 4096) (k : Fin (S8x4096x4096.size 1)) :
    red1.lift (ix2 b m) k = ix3 b (⟨k.val, k.isLt⟩ : Fin 4096) m := by
  funext c; apply Fin.ext
  fin_cases c <;> rfl

/-- The minimum over the last axis, started from +∞, is the distance to the nearest point of the second cloud. -/
theorem v13_eq_xnear (b : Fin 8) (n : Fin 4096) :
    val_main_v13 (F := Ideal) x0 x1 (ix2 b n) = xnear x0 x1 b n := by
  unfold val_main_v13
  rw [Host.reduce_eq_fold_single FloatOps.minimumf _ _ reducesTo_S8x4096x4096_S8x4096_d2 red2 h_S_]
  have hf : (val_main_v12 (F := Ideal) x0 x1 ∘ red2.lift (ix2 b n)) = fun m : Fin 4096 => dist x0 x1 b n m :=
    funext fun k => by
      show val_main_v12 (F := Ideal) x0 x1 (red2.lift (ix2 b n) k) = _
      rw [lift2_ix2]
      exact v12_eq_dist x0 x1 b n _
  rw [hf, val_main_cst_2_apply, Ideal.ofBits_def, ofBits_posInf]
  exact fold_min_top _ _

/-- The minimum over the middle axis, started from +∞, is the distance to the nearest point of the first cloud. -/
theorem v14_eq_ynear (b : Fin 8) (m : Fin 4096) :
    val_main_v14 (F := Ideal) x0 x1 (ix2 b m) = ynear x0 x1 b m := by
  unfold val_main_v14
  rw [Host.reduce_eq_fold_single FloatOps.minimumf _ _ reducesTo_S8x4096x4096_S8x4096_d1 red1 h_S_]
  have hf : (val_main_v12 (F := Ideal) x0 x1 ∘ red1.lift (ix2 b m)) = fun n : Fin 4096 => dist x0 x1 b n m :=
    funext fun k => by
      show val_main_v12 (F := Ideal) x0 x1 (red1.lift (ix2 b m) k) = _
      rw [lift1_ix2]
      exact v12_eq_dist x0 x1 b _ m
  rw [hf, val_main_cst_3_apply, Ideal.ofBits_def, ofBits_posInf]
  exact fold_min_top _ _

/-- The reference's result is the chamfer loss. -/
theorem ref_eq_loss : val_main_v19 (F := Ideal) x0 x1 = fun _ => loss x0 x1 := by
  funext i
  rw [val_main_v19_apply, val_main_v16_apply, val_main_v18_apply, val_main_v15_apply, val_main_v17_apply,
    val_main_cst_4_apply, val_main_cst_5_apply, val_main_cst_6_apply, val_main_cst_7_apply, sum_idx2, sum_idx2]
  simp only [v13_eq_xnear, v14_eq_ynear, Ideal.addf_def, Ideal.hostDivf_def, Ideal.ofBits_def, Ideal.ofBits_zero_f32,
    zero_add]
  rfl

end Cert.Chamfer

end
-- ==== Proof.lean ====
/-
  The chamfer loss of two clouds of 8 × 4096 points, computed two ways.

  The kernel walks a grid of 8 batches × 8 row tiles. At each point it forms the 512 × 4096 tile of squared distances
  d = (|x|² + |y|²) − 2·x·y between 512 points of the first cloud and all points of the second, stores the tile's row
  minima (final for those rows), and keeps a running column minimum per batch: set at the first row tile, lowered at
  the seven later ones, written back after the eighth. The host then averages both arrays of minima and adds the
  averages. The reference forms all 8 × 4096 × 4096 distances at once, takes the minima along each axis, and averages.

  On the extended reals the two agree: each is the one function `Cert.Chamfer.loss` of the argument arrays. The same
  literal words (2, +∞, 0, 32768) stand on both sides; a change of float format is the identity; a lane or host sum,
  and a matrix product into a zero accumulator, are plain finite sums, in any order; a minimum over 4096 rows is the
  minimum of the 8 tiles' minima; the sum over an 8 × 8 × 1 × 512 array is the sum over 8 × 4096. None of this needs the
  inputs finite, so the precondition is never opened.

  Frames: the tile body has two cases (first row tile of a batch / a later one), each run once on arbitrary staging
  memrefs; the grid point selects the case; the column-minimum buffer is carried from point to point within a batch.
  The same text proves the frame of the word-level kernel and of its idealization. The idealization rewrote nothing,
  so `preserves` is trivial. The reference is a straight line of host operations.
-/
import proofs.«160829_g28724741276335_cont_9to1_1365_9_alg».proof.Defs
import proofs.«160829_g28724741276335_cont_9to1_1365_9_alg».proof.Proof.Gen.Kernel
import proofs.«160829_g28724741276335_cont_9to1_1365_9_alg».proof.Proof.Gen.KernelIdeal
import proofs.«160829_g28724741276335_cont_9to1_1365_9_alg».proof.Proof.Gen.ReferenceIdeal
import proofs.«160829_g28724741276335_cont_9to1_1365_9_alg».proof.Proof.Gen.Pre_finite_inputs
import proofs.«160829_g28724741276335_cont_9to1_1365_9_alg».proof.Proof.Gen.ReferenceIdeal.Read
import proofs.«160829_g28724741276335_cont_9to1_1365_9_alg».proof.Proof.Kernel.Frame
import proofs.«160829_g28724741276335_cont_9to1_1365_9_alg».proof.Proof.KernelResult
import proofs.«160829_g28724741276335_cont_9to1_1365_9_alg».proof.Proof.RefLoss

noncomputable section

namespace Cert.Proof

open Idealize.ShloMosaic Idealize.SL.Sem

/-- The word-level kernel runs to the end, faults nowhere, and leaves its arguments unchanged. -/
theorem frame_k : Cert.frame_Kernel := fun m ρ _ => Cert.Kernel.Body.frame m ρ
/-- So does its idealization. -/
theorem frame_ki : Cert.frame_KernelIdeal := fun m ρ _ => Cert.KernelIdeal.Body.frame m ρ
/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read on the extended reals: nothing to preserve. -/
theorem preserves : Cert.preserves_Kernel_KernelIdeal := trivial

/-- Both idealized programs end at the chamfer loss of the argument clouds. -/
theorem algebraic : Cert.algebraic_KernelIdeal_ReferenceIdeal := by
  intro m ρ m' ρ' _ hagree
  refine ⟨fun c => fun _ => Cert.Chamfer.loss (Cert.Chamfer.cP m c) (Cert.Chamfer.cT m c), Cert.Chamfer.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v19_eq _ _).trans (Cert.Chamfer.ref_eq_loss _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
